-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192 : Shape := ⟨1, ![8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : FVec F S8192x512 .f32) (main_arg2 : IVec S8192 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Kernel.lean ====
abbrev S8192x512 : Shape := ⟨2, ![8192, 512]⟩
abbrev S8192 : Shape := ⟨1, ![8192]⟩
abbrev S1024x512 : Shape := ⟨2, ![1024, 512]⟩
abbrev S1024 : Shape := ⟨1, ![1024]⟩
abbrev S1024x1 : Shape := ⟨2, ![1024, 1]⟩
abbrev S8192x1 : Shape := ⟨2, ![8192, 1]⟩
abbrev S1x8192 : Shape := ⟨2, ![1, 8192]⟩
abbrev S1x1024 : Shape := ⟨2, ![1, 1024]⟩
abbrev S1024x1024 : Shape := ⟨2, ![1024, 1024]⟩
abbrev S_ : Shape := ⟨0, ![]⟩

abbrev nBuf : Space → Nat
  | .hbm => 37
  | .vmem => 28
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192, .i32⟩
  | .hbm, ⟨3, _⟩ => ⟨S8192x512, .bf16⟩
  | .hbm, ⟨4, _⟩ => ⟨S8192x512, .bf16⟩
  | .hbm, ⟨5, _⟩ => ⟨S8192x1, .i32⟩
  | .hbm, ⟨6, _⟩ => ⟨S1x8192, .i32⟩
  | .hbm, ⟨7, _⟩ => ⟨S8192x1, .f32⟩
  | .hbm, ⟨8, _⟩ => ⟨S8192x1, .f32⟩
  | .hbm, ⟨9, _⟩ => ⟨S8192, .f32⟩
  | .hbm, ⟨10, _⟩ => ⟨S8192, .f32⟩
  | .hbm, ⟨11, _⟩ => ⟨S8192x1, .f32⟩
  | .hbm, ⟨12, _⟩ => ⟨S8192x1, .f32⟩
  | .hbm, ⟨13, _⟩ => ⟨S8192, .f32⟩
  | .hbm, ⟨14, _⟩ => ⟨S8192, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S8192, .f32⟩
  | .hbm, ⟨19, _⟩ => ⟨S_, .f32⟩
  | .hbm, ⟨20, _⟩ => ⟨S8192, .f32⟩
  | .hbm, ⟨21, _⟩ => ⟨S8192, .f32⟩
  | .hbm, ⟨22, _⟩ => ⟨S8192, .f32⟩
  | .hbm, ⟨23, _⟩ => ⟨S_, .f32⟩
  | .hbm, ⟨24, _⟩ => ⟨S8192, .f32⟩
  | .hbm, ⟨25, _⟩ => ⟨S8192, .f32⟩
  | .hbm, ⟨26, _⟩ => ⟨S8192, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S8192, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S8192x512, .bf16⟩
  | .local _ .vmem, ⟨11, _⟩ => ⟨S1024x1, .i32⟩
  | .local _ .vmem, ⟨12, _⟩ => ⟨S1024x1, .i32⟩
  | .local _ .vmem, ⟨13, _⟩ => ⟨S1x8192, .i32⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | .local _ .vmem, ⟨17, _⟩ => ⟨S1024x1, .f32⟩
  | .local _ .vmem, ⟨18, _⟩ => ⟨S1024x512, .bf16⟩
  | .local _ .vmem, ⟨19, _⟩ => ⟨S1024x512, .bf16⟩
  | .local _ .vmem, ⟨20, _⟩ => ⟨S8192x512, .bf16⟩
  | .local _ .vmem, ⟨21, _⟩ => ⟨S1024x1, .i32⟩
  | .local _ .vmem, ⟨22, _⟩ => ⟨S1024x1, .i32⟩
  | .local _ .vmem, ⟨23, _⟩ => ⟨S1x8192, .i32⟩
  | .local _ .vmem, ⟨24, _⟩ => ⟨S1024x1, .f32⟩
  | .local _ .vmem, ⟨25, _⟩ => ⟨S1024x1, .f32⟩
  | .local _ .vmem, ⟨26, _⟩ => ⟨S1024x1, .f32⟩
  | .local _ .vmem, ⟨27, _⟩ => ⟨S1024x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg5_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem4_1 : DmaSem sig := 25
abbrev cc2_sem5_0 : DmaSem sig := 26
abbrev cc2_sem5_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

@[reducible] def k1_t1_loop : Scf.Loop 32 :=
  let c0_i32 : BitVec 32 := 0#32
  let c8_i32 : BitVec 32 := 8#32
  let v6 : BitVec 32 := Scalar.addi c0_i32 c8_i32
  let c1_i32 : BitVec 32 := 1#32
  ⟨c0_i32, v6, c1_i32⟩
def k1_mult1 (k1_t1 : Fin k1_t1_loop.trips) : BitVec 32 :=
  let c0_i32 : BitVec 32 := 0#32
  let c1_i32 : BitVec 32 := 1#32
  let arg7 : BitVec 32 := Scf.iv c0_i32 c1_i32 k1_t1
  let c1024_i32 : BitVec 32 := 1024#32
  let v10 : BitVec 32 := Scalar.muli arg7 c1024_i32
  v10
def k1_off1 (k1_t1 : Fin k1_t1_loop.trips) : Fin 2 → Nat :=
  let c0_i32 : BitVec 32 := 0#32
  let c1_i32 : BitVec 32 := 1#32
  let arg7 : BitVec 32 := Scf.iv c0_i32 c1_i32 k1_t1
  let c1024_i32 : BitVec 32 := 1024#32
  let v10 : BitVec 32 := Scalar.muli arg7 c1024_i32
  let v11 : BitVec 32 := v10
  let v12 : Index := Scalar.indexCast v11
  let c0_9 : Index := 0#32
  ![v12.toNat, 0]
def k1_off2 (k1_t1 : Fin k1_t1_loop.trips) : Fin 2 → Nat :=
  let c0_10 : Index := 0#32
  let c0_i32 : BitVec 32 := 0#32
  let c1_i32 : BitVec 32 := 1#32
  let arg7 : BitVec 32 := Scf.iv c0_i32 c1_i32 k1_t1
  let c1024_i32 : BitVec 32 := 1024#32
  let v10 : BitVec 32 := Scalar.muli arg7 c1024_i32
  let v11 : BitVec 32 := v10
  let v15 : Index := Scalar.indexCast v11
  ![0, v15.toNat]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x8192 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1024x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![8], ![false]⟩

@[reducible] def k2_t1_loop : Scf.Loop 32 :=
  let c0_i32 : BitVec 32 := 0#32
  let c8_i32 : BitVec 32 := 8#32
  let v6 : BitVec 32 := Scalar.addi c0_i32 c8_i32
  let c1_i32 : BitVec 32 := 1#32
  ⟨c0_i32, v6, c1_i32⟩
def k2_mult1 (k2_t1 : Fin k2_t1_loop.trips) : BitVec 32 :=
  let c0_i32 : BitVec 32 := 0#32
  let c1_i32 : BitVec 32 := 1#32
  let arg7 : BitVec 32 := Scf.iv c0_i32 c1_i32 k2_t1
  let c1024_i32 : BitVec 32 := 1024#32
  let v10 : BitVec 32 := Scalar.muli arg7 c1024_i32
  v10
def k2_off1 (k2_t1 : Fin k2_t1_loop.trips) : Fin 2 → Nat :=
  let c0_i32 : BitVec 32 := 0#32
  let c1_i32 : BitVec 32 := 1#32
  let arg7 : BitVec 32 := Scf.iv c0_i32 c1_i32 k2_t1
  let c1024_i32 : BitVec 32 := 1024#32
  let v10 : BitVec 32 := Scalar.muli arg7 c1024_i32
  let v11 : BitVec 32 := v10
  let v12 : Index := Scalar.indexCast v11
  let c0_9 : Index := 0#32
  ![v12.toNat, 0]
def k2_off2 (k2_t1 : Fin k2_t1_loop.trips) : Fin 2 → Nat :=
  let c0_10 : Index := 0#32
  let c0_i32 : BitVec 32 := 0#32
  let c1_i32 : BitVec 32 := 1#32
  let arg7 : BitVec 32 := Scf.iv c0_i32 c1_i32 k2_t1
  let c1024_i32 : BitVec 32 := 1024#32
  let v10 : BitVec 32 := Scalar.muli arg7 c1024_i32
  let v11 : BitVec 32 := v10
  let v15 : Index := Scalar.indexCast v11
  ![0, v15.toNat]
def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8192x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x8192 .i32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1024x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1024x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  broadcasts_S1024x1_S1024x512 : S1024x1.Broadcasts S1024x512
  bitsLt_bf16_f32 : FTy.bits .bf16 < FTy.bits .f32
  packedbf16_S1024x512_S1024x512_0_0 : (Rect.unit (s := S1024x512) ![0, 0] S1024x512.size inb_S1024x512_S1024x512_0_0).PackedRows (EltTy.packing .bf16)
  shapeCasts_S8192_S8192x1 : S8192.ShapeCasts S8192x1
  shapeCasts_S8192_S1x8192 : S8192.ShapeCasts S1x8192
  shapeCasts_S1024x512_S1024x512 : S1024x512.ShapeCasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S8192x1_S8192 : S8192x1.ShapeCasts S8192
  bcast_S_S8192 : S_.BroadcastsInDim S8192 (![] : Fin 0 → Fin S8192.rank)
  reducesTo_S8192_S_d0 : S8192.ReducesTo [0] S_
  h_S_ : 0 < S_.numel
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .f32 = 32 ∨ (Rect.block (s := S8192x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x512.size a
  hwx0_2 : ∀ i : grid0.Coords, EltTy.bits .bf16 = 32 ∨ (Rect.block (s := S8192x512) S1024x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x512.size a
  hwx0_3 : ∀ i : grid0.Coords, EltTy.bits .bf16 = 32 ∨ (Rect.block (s := S8192x512) S1024x512.size (cc0_transform_3 i) (hinb0_3 i)).WholeWords (EltTy.packing .bf16)
  hrank1 : 0 < grid1.rank
  k1_t1_ok : k1_t1_loop.OK
  k1_mult1_dvd : ∀ k1_t1 : Fin k1_t1_loop.trips, 1024 ∣ (k1_mult1 k1_t1).toNat
  k1_off1_inb : ∀ k1_t1 : Fin k1_t1_loop.trips, ∀ a, (k1_off1 k1_t1) a + S1024x512.size a ≤ S8192x512.size a
  k1_off2_inb : ∀ k1_t1 : Fin k1_t1_loop.trips, ∀ a, (k1_off2 k1_t1) a + S1x1024.size a ≤ S1x8192.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x512.size a
  hwx1_0 : ∀ i : grid1.Coords, EltTy.bits .bf16 = 32 ∨ (Rect.block (s := S8192x512) S1024x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x512.size a ≤ S8192x512.size a
  hwx1_1 : ∀ i : grid1.Coords, EltTy.bits .bf16 = 32 ∨ (Rect.block (s := S8192x512) S8192x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .i32 = 32 ∨ (Rect.block (s := S8192x1) S1024x1.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x8192.size a ≤ S1x8192.size a
  hwx1_3 : ∀ i : grid1.Coords, EltTy.bits .i32 = 32 ∨ (Rect.block (s := S1x8192) S1x8192.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S8192x1.size a
  hwx1_4 : ∀ i : grid1.Coords, EltTy.bits .f32 = 32 ∨ (Rect.block (s := S8192x1) S1024x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1.size a ≤ S8192x1.size a
  hwx1_5 : ∀ i : grid1.Coords, EltTy.bits .f32 = 32 ∨ (Rect.block (s := S8192x1) S1024x1.size (cc1_transform_5 i) (hinb1_5 i)).WholeWords (EltTy.packing .f32)
  hrank2 : 0 < grid2.rank
  k2_t1_ok : k2_t1_loop.OK
  k2_mult1_dvd : ∀ k2_t1 : Fin k2_t1_loop.trips, 1024 ∣ (k2_mult1 k2_t1).toNat
  k2_off1_inb : ∀ k2_t1 : Fin k2_t1_loop.trips, ∀ a, (k2_off1 k2_t1) a + S1024x512.size a ≤ S8192x512.size a
  k2_off2_inb : ∀ k2_t1 : Fin k2_t1_loop.trips, ∀ a, (k2_off2 k2_t1) a + S1x1024.size a ≤ S1x8192.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S8192x512.size a
  hwx2_0 : ∀ i : grid2.Coords, EltTy.bits .bf16 = 32 ∨ (Rect.block (s := S8192x512) S1024x512.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x512.size a ≤ S8192x512.size a
  hwx2_1 : ∀ i : grid2.Coords, EltTy.bits .bf16 = 32 ∨ (Rect.block (s := S8192x512) S8192x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S8192x1.size a
  hwx2_2 : ∀ i : grid2.Coords, EltTy.bits .i32 = 32 ∨ (Rect.block (s := S8192x1) S1024x1.size (cc2_transform_2 i) (hinb2_2 i)).WholeWords (EltTy.packing .i32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x8192.size a ≤ S1x8192.size a
  hwx2_3 : ∀ i : grid2.Coords, EltTy.bits .i32 = 32 ∨ (Rect.block (s := S1x8192) S1x8192.size (cc2_transform_3 i) (hinb2_3 i)).WholeWords (EltTy.packing .i32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x1.size a ≤ S8192x1.size a
  hwx2_4 : ∀ i : grid2.Coords, EltTy.bits .f32 = 32 ∨ (Rect.block (s := S8192x1) S1024x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x1.size a ≤ S8192x1.size a
  hwx2_5 : ∀ i : grid2.Coords, EltTy.bits .f32 = 32 ∨ (Rect.block (s := S8192x1) S1024x1.size (cc2_transform_5 i) (hinb2_5 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1024x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0_1) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S8192x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x8192.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3_0) S1024x1.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3_1) S1024x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v0_0) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0_1) S8192x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v1) S1024x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2) S1x8192.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v6_0) S1024x1.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v6_1) S1024x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S8192x512 : Shape := ⟨2, ![8192, 512]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩

abbrev nBuf : Space → Nat
  | .hbm => 68
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192, .i32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x512, .f32⟩
  | .hbm, ⟨22, _⟩ => ⟨S8192x512, .f32⟩
  | .hbm, ⟨23, _⟩ => ⟨S8192x1, .i32⟩
  | .hbm, ⟨24, _⟩ => ⟨S1x8192, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S8192, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192, .f32⟩
  | .hbm, ⟨45, _⟩ => ⟨S8192x8192, .f32⟩
  | .hbm, ⟨46, _⟩ => ⟨S_, .f32⟩
  | .hbm, ⟨47, _⟩ => ⟨S8192, .f32⟩
  | .hbm, ⟨48, _⟩ => ⟨S_, .f32⟩
  | .hbm, ⟨49, _⟩ => ⟨S8192, .f32⟩
  | .hbm, ⟨50, _⟩ => ⟨S_, .f32⟩
  | .hbm, ⟨51, _⟩ => ⟨S8192, .f32⟩
  | .hbm, ⟨52, _⟩ => ⟨S8192, .f32⟩
  | .hbm, ⟨53, _⟩ => ⟨S8192, .f32⟩
  | .hbm, ⟨54, _⟩ => ⟨S_, .f32⟩
  | .hbm, ⟨55, _⟩ => ⟨S8192, .f32⟩
  | .hbm, ⟨56, _⟩ => ⟨S8192, .f32⟩
  | .hbm, ⟨57, _⟩ => ⟨S8192, .f32⟩
  | .hbm, ⟨58, _⟩ => ⟨S_, .f32⟩
  | .hbm, ⟨59, _⟩ => ⟨S8192, .f32⟩
  | .hbm, ⟨60, _⟩ => ⟨S8192, .f32⟩
  | .hbm, ⟨61, _⟩ => ⟨S8192, .f32⟩
  | .hbm, ⟨62, _⟩ => ⟨S8192, .f32⟩
  | .hbm, ⟨63, _⟩ => ⟨S8192, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_cst_6 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_7 : Ref sig .tc := ⟨.hbm, 46, rfl⟩
abbrev main_v35 : Ref sig .tc := ⟨.hbm, 47, rfl⟩
abbrev main_cst_8 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_10 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_11 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_12 : Ref sig .tc := ⟨.hbm, 64, rfl⟩
abbrev main_v48 : Ref sig .tc := ⟨.hbm, 65, rfl⟩
abbrev main_cst_13 : Ref sig .tc := ⟨.hbm, 66, rfl⟩
abbrev main_v49 : Ref sig .tc := ⟨.hbm, 67, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  transposes_S8192x8192_S8192x8192_1_0 : S8192x8192.Transposes [1, 0] S8192x8192
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x512_S8192x512_S8192x8192_1_1_0_0_n_n_wf : DotDims.WF S8192x512 S8192x512 S8192x8192 [1] [1] [0] [0] [] []

variable [Facts₀]

def dot_S8192x512_S8192x512_S8192x8192_1_1_0_0_n_n : DotDims S8192x512 S8192x512 S8192x8192 where
  lhsContracting := [1]
  rhsContracting := [1]
  lhsNonContracting := [0]
  rhsNonContracting := [0]
  lhsBatch := []
  rhsBatch := []
  wf := dot_S8192x512_S8192x512_S8192x8192_1_1_0_0_n_n_wf

class Facts : Prop extends Facts₀ where

variable [Facts]
-- ==== Proof.KernelRun.lean ====
/-
  The idealized kernel's run with its result named.

  Every weakly fair execution of the program terminates without a fault, leaves the three argument arrays as they
  were, and leaves in the result buffer what the last stretch of host operations computes from the contents the
  third pairwise pass leaves behind — the last of the boundary contents `W0 … W6` that thread the program: launch
  memory, after the normalisation pass, after the label reshapes, after the first pairwise pass, after its reshapes,
  after the second pairwise pass, after the final host operations.
-/
import proofs.«143684_j42013370090174_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_value : θ_run defs (onTc (τ := τ) (main (F := F))) ⟨m, fun _ => 0, ρ⟩ (fun r => ∀ c : Dev nD,
      r.2.mem ((c.tc : Thread nD τ).loc main_v24) = W6 m ρ c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v24 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c)⟩)

end Cert.KernelIdeal.RunValue

end
-- ==== Proof.LibColumnCast.lean ====
/-
  A vector of length `a` viewed as a column `[a, 1]`, read at an index.

  Both shapes list their entries in the same row-major order, and the column's entry (i, 0) is the
  i-th of them, so the column at (i, 0) is the vector at i.
-/
import Idealize.ShloMosaic.Lib.Pipeline.Value
import Idealize.ShloMosaic.Lib.ValueIdx

namespace Idealize.ShloMosaic.ValueIdx

variable {α : Type}

/-- A length-`a` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Idealize.ShloMosaic.ValueIdx
-- ==== Proof.LibLaneSum.lean ====
/-
  The sum along the rows of an `a × n` block, viewed as a column.

  A float lane sum over the second axis of an `a × n` block, started from zero, gives one number per row; recast as
  an `a × 1` column, its entry `(r, 0)` is the plain finite sum of the block's row `r` over its `n` columns.
-/
import Idealize.ShloMosaic.PureOps.Ideal.Laws
import Idealize.ShloMosaic.Lib.Pipeline.Value
import Idealize.ShloMosaic.Lib.ValueIdx
import proofs.«143684_j42013370090174_2_alg».proof.Proof.LibColumnCast

namespace Idealize.ShloMosaic.ValueIdx

/-- A lane sum of an `a × n` block from zero, recast as a column, at row `r`: the sum of the block's row `r`. -/
theorem laneSum_column_apply {a n : ℕ} (src : FVec Ideal ⟨2, ![a, n]⟩ .f32)
    (hacc : (0x00000000#32 : BitVec 32) = 0x00000000#32)
    (h : (⟨2, ![a, n]⟩ : Shape).Reduces [1] ⟨1, ![a]⟩) (hc : (⟨1, ![a]⟩ : Shape).ShapeCasts ⟨2, ![a, 1]⟩)
    (r : Fin a) (u : Fin 1) :
    shapeCast ⟨2, ![a, 1]⟩ (multiReduction .add [1] ⟨1, ![a]⟩ src 0x00000000#32 h (.inl rfl) hacc) hc (ix2 r u)
      = ∑ c : Fin n, src (ix2 r c) := by
  refine (shapeCast_a_a1_apply _ hc r u).trans ?_
  refine (Ideal.multiReduction_add_single src 0x00000000#32 h (.inl rfl) hacc (ix1 r)).trans ?_
  refine Finset.sum_congr rfl fun k _ => ?_
  exact congrArg src (funext fun b => Fin.ext (by match b with | ⟨0, _⟩ => rfl | ⟨1, _⟩ => rfl))

end Idealize.ShloMosaic.ValueIdx
-- ==== Proof.NormPayload.lean ====
/-
  The normalisation kernel's arithmetic at one entry, over the extended reals.

  Each of the two outputs is its input divided, row by row, by the larger of the row's Euclidean norm and a small
  floor: entry (r, d) is  x r d / max (√(∑ e, x r e · x r e)) floor.  The change to a narrower float format on the way
  out is the identity on the extended reals. The two outputs are the same function of their own inputs.
-/
import proofs.«143684_j42013370090174_2_alg».proof.Proof.Gen.KernelIdeal.Skeleton
import proofs.«143684_j42013370090174_2_alg».proof.Proof.LibLaneSum
import Idealize.ShloMosaic.PureOps.Ideal.Laws
import Idealize.ShloMosaic.Lib.ValueIdx
import Idealize.ShloMosaic.Lib.Pipeline.Value

noncomputable section

namespace Cert.KernelIdeal.NormValue

open Cert.KernelIdeal Cert.KernelIdeal.Gen Idealize.ShloMosaic Idealize.ShloMosaic.ValueIdx

/-- The floor under the norm. -/
abbrev normFloor : EReal := Ideal.ofBits .f32 0x2B8CBCCC#32

/-- A row-normalised block, entry (r, d). -/
theorem norm_apply (x : Vec Ideal S1024x512 .f32) (r : Fin 1024) (d : Fin 512) :
    k0_pay1 (F := Ideal) x (ix2 r d)
      = Ideal.div (x (ix2 r d)) (max (Ideal.sqrt (∑ e : Fin 512, x (ix2 r e) * x (ix2 r e))) normFloor) := by
  unfold k0_pay1
  refine congrArg (Ideal.div (x (ix2 r d))) ?_
  refine (broadcastTo_apply _ _ (ix2 r d) (ix2 r 0) (fun a => by match a with | ⟨0, _⟩ => rfl | ⟨1, _⟩ => rfl)).trans ?_
  refine congrArg (fun z => max (Ideal.sqrt z) normFloor) ?_
  exact laneSum_column_apply _ rfl _ _ r 0

/-- The second output is the first output's function of its own input. -/
theorem pay2_eq_pay1 (x : Vec Ideal S1024x512 .f32) : k0_pay2 (F := Ideal) x = k0_pay1 (F := Ideal) x := rfl

end Cert.KernelIdeal.NormValue

end
-- ==== Proof.NormArrays.lean ====
/-
  The normalisation pass, read as whole arrays.

  The pass runs over 8 grid points; point `t` reads rows `1024·t … 1024·t + 1023` of each input and writes the same rows
  of each output. Every row of an output lies in exactly the block of point `row / 1024`, so after the pass each output
  array holds, everywhere, its input divided row by row by the larger of the row's norm and the floor.
-/
import proofs.«143684_j42013370090174_2_alg».proof.Proof.Gen.KernelIdeal.Frame
import proofs.«143684_j42013370090174_2_alg».proof.Proof.NormPayload

set_option maxRecDepth 16384

noncomputable section

namespace Cert.KernelIdeal.NormValue

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- An 8192 × 512 array divided, row by row, by the larger of the row's norm and the floor. -/
def normRows (x : S8192x512.Idx → EReal) : S8192x512.Idx → EReal := fun i =>
  Ideal.div (x i) (max (Ideal.sqrt (∑ e : Fin 512, x (ix2 (i 0) e) * x (ix2 (i 0) e))) normFloor)

/-- A block of 1024 rows of an array, normalised, is the same rows of the normalised array: a row's norm needs only
    that row. -/
theorem norm_block (X : S8192x512.Idx → EReal) (blk : Vec Ideal S1024x512 .f32) (t : ℕ)
    (ht : ∀ r : Fin 1024, 1024 * t + r.val < 8192)
    (hblk : ∀ (r : Fin 1024) (e : Fin 512), blk (ix2 r e) = X (ix2 ⟨1024 * t + r.val, ht r⟩ e)) (r : Fin 1024) (d : Fin 512) :
    k0_pay1 (F := Ideal) blk (ix2 r d) = normRows X (ix2 ⟨1024 * t + r.val, ht r⟩ d) := by
  refine (norm_apply blk r d).trans ?_
  unfold normRows
  simp only [hblk]

/-- The block of point `t` is block row `t`, block column 0, for both inputs and both outputs. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem points : cfg0.N = 8 := rfl

/-- Row `r` of block `t` is a row of the array. -/
theorem row_lt (t : Fin cfg0.N) (r : Fin 1024) : 1024 * t.val + r.val < 8192 := by
  have ht : t.val < 8 := t.isLt
  have hr := r.isLt
  omega

/-- Entry (r, e) of point `t`'s block of window `w` is entry (1024·t + r, e) of the array. -/
theorem emb_in0 (t : Fin cfg0.N) (r : Fin 1024) (e : Fin 512) :
    ((cfg0.win 0).blk t).view.emb (ix2 r e) = ix2 ⟨1024 * t.val + r.val, row_lt t r⟩ e := by
  obtain ⟨e0, e1, -⟩ := block_index t
  funext a; apply Fin.ext
  match a with
  | ⟨0, _⟩ => show win0_0.index t (0 : Fin 2) * 1024 + 1 * r.val = 1024 * t.val + r.val; omega
  | ⟨1, _⟩ => show win0_0.index t (1 : Fin 2) * 512 + 1 * e.val = e.val; omega
theorem emb_in1 (t : Fin cfg0.N) (r : Fin 1024) (e : Fin 512) :
    ((cfg0.win 1).blk t).view.emb (ix2 r e) = ix2 ⟨1024 * t.val + r.val, row_lt t r⟩ e := by
  obtain ⟨-, -, e0, e1, -⟩ := block_index t
  funext a; apply Fin.ext
  match a with
  | ⟨0, _⟩ => show win0_1.index t (0 : Fin 2) * 1024 + 1 * r.val = 1024 * t.val + r.val; omega
  | ⟨1, _⟩ => show win0_1.index t (1 : Fin 2) * 512 + 1 * e.val = e.val; omega
theorem emb_out2 (t : Fin cfg0.N) (r : Fin 1024) (e : Fin 512) :
    ((cfg0.win 2).blk t).view.emb (ix2 r e) = ix2 ⟨1024 * t.val + r.val, row_lt t r⟩ e := by
  obtain ⟨-, -, -, -, e0, e1, -⟩ := block_index t
  funext a; apply Fin.ext
  match a with
  | ⟨0, _⟩ => show win0_2.index t (0 : Fin 2) * 1024 + 1 * r.val = 1024 * t.val + r.val; omega
  | ⟨1, _⟩ => show win0_2.index t (1 : Fin 2) * 512 + 1 * e.val = e.val; omega
theorem emb_out3 (t : Fin cfg0.N) (r : Fin 1024) (e : Fin 512) :
    ((cfg0.win 3).blk t).view.emb (ix2 r e) = ix2 ⟨1024 * t.val + r.val, row_lt t r⟩ e := by
  obtain ⟨-, -, -, -, -, -, e0, e1⟩ := block_index t
  funext a; apply Fin.ext
  match a with
  | ⟨0, _⟩ => show win0_3.index t (0 : Fin 2) * 1024 + 1 * r.val = 1024 * t.val + r.val; omega
  | ⟨1, _⟩ => show win0_3.index t (1 : Fin 2) * 512 + 1 * e.val = e.val; omega

/-- What point `t` writes back to the first output is block `t` of the first input, normalised. -/
theorem flushed2_eq (c : Dev nD) (t : Fin cfg0.N) :
    (dat0 V c).flushed 2 t = ((cfg0.win 2).blk t).view.read (Elt Ideal) (normRows (V c (Pipeline.arrRef spec0 0))) := by
  show (cfg0.win 2).cut (grid0.coords t) ((dat0 V c).after 2 t) = _
  rw [after0_2]
  unfold out0_2
  rw [View.canon_unit_zero zero_offsets]
  simp only [View.ld_unit_zero (S := S1024x512) zero_offsets]
  funext j
  obtain ⟨r, d, rfl⟩ : ∃ (r : Fin 1024) (d : Fin 512), j = ix2 r d := ⟨j 0, j 1, eq_ix2 j⟩
  refine (norm_block (V c (Pipeline.arrRef spec0 0)) (iblk0 V c 0 t) t.val (row_lt t) (fun r e => ?_) r d).trans ?_
  · show (V c (Pipeline.arrRef spec0 0)) (((cfg0.win 0).blk t).view.emb (ix2 r e)) = _
    rw [emb_in0]
  · show _ = normRows (V c (Pipeline.arrRef spec0 0)) (((cfg0.win 2).blk t).view.emb (ix2 r d))
    rw [emb_out2]

/-- What point `t` writes back to the second output is block `t` of the second input, normalised. -/
theorem flushed3_eq (c : Dev nD) (t : Fin cfg0.N) :
    (dat0 V c).flushed 3 t = ((cfg0.win 3).blk t).view.read (Elt Ideal) (normRows (V c (Pipeline.arrRef spec0 1))) := by
  show (cfg0.win 3).cut (grid0.coords t) ((dat0 V c).after 3 t) = _
  rw [after0_3]
  unfold out0_3
  rw [View.canon_unit_zero zero_offsets]
  simp only [View.ld_unit_zero (S := S1024x512) zero_offsets]
  funext j
  obtain ⟨r, d, rfl⟩ : ∃ (r : Fin 1024) (d : Fin 512), j = ix2 r d := ⟨j 0, j 1, eq_ix2 j⟩
  rw [pay2_eq_pay1]
  refine (norm_block (V c (Pipeline.arrRef spec0 1)) (iblk0 V c 1 t) t.val (row_lt t) (fun r e => ?_) r d).trans ?_
  · show (V c (Pipeline.arrRef spec0 1)) (((cfg0.win 1).blk t).view.emb (ix2 r e)) = _
    rw [emb_in1]
  · show _ = normRows (V c (Pipeline.arrRef spec0 1)) (((cfg0.win 3).blk t).view.emb (ix2 r d))
    rw [emb_out3]

/-- An index of the first output is in point `t`'s block iff its row is in the block's range (its column always is). -/
theorem mem_blk2 (t : Fin cfg0.N) (i : S8192x512.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_v0_0).slice (win0_2.rect t)).set ↔ _
  rw [View.set_slice_whole, Rect.mem_set_unit]
  exact Iff.rfl
theorem mem_blk3 (t : Fin cfg0.N) (i : S8192x512.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v0_1).slice (win0_3.rect t)).set ↔ _
  rw [View.set_slice_whole, Rect.mem_set_unit]
  exact Iff.rfl

/-- Every index of the first output is in the block of the point its row names. -/
theorem cover2 (i : S8192x512.Idx) : ∃ t : Fin cfg0.N, (cfg0.win 2).flush t = true ∧ i ∈ ((cfg0.win 2).blk t).view.set := by
  have hi0 : (i 0).val < 8192 := (i 0).isLt
  have hi1 : (i 1).val < 512 := (i 1).isLt
  refine ⟨⟨(i 0).val / 1024, by show _ < 8; omega⟩, flush0_2 _, ?_⟩
  rw [mem_blk2]
  obtain ⟨-, -, -, -, e0, e1, -⟩ := block_index ⟨(i 0).val / 1024, by show _ < 8; omega⟩
  intro a
  match a with
  | ⟨0, _⟩ =>
    show win0_2.index _ (0 : Fin 2) * 1024 ≤ (i 0).val ∧ (i 0).val < win0_2.index _ (0 : Fin 2) * 1024 + 1024
    rw [e0]; show (i 0).val / 1024 * 1024 ≤ _ ∧ _ < (i 0).val / 1024 * 1024 + 1024; omega
  | ⟨1, _⟩ =>
    show win0_2.index _ (1 : Fin 2) * 512 ≤ (i 1).val ∧ (i 1).val < win0_2.index _ (1 : Fin 2) * 512 + 512
    rw [e1]; omega
theorem cover3 (i : S8192x512.Idx) : ∃ t : Fin cfg0.N, (cfg0.win 3).flush t = true ∧ i ∈ ((cfg0.win 3).blk t).view.set := by
  have hi0 : (i 0).val < 8192 := (i 0).isLt
  have hi1 : (i 1).val < 512 := (i 1).isLt
  refine ⟨⟨(i 0).val / 1024, by show _ < 8; omega⟩, flush0_3 _, ?_⟩
  rw [mem_blk3]
  obtain ⟨-, -, -, -, -, -, e0, e1⟩ := block_index ⟨(i 0).val / 1024, by show _ < 8; omega⟩
  intro a
  match a with
  | ⟨0, _⟩ =>
    show win0_3.index _ (0 : Fin 2) * 1024 ≤ (i 0).val ∧ (i 0).val < win0_3.index _ (0 : Fin 2) * 1024 + 1024
    rw [e0]; show (i 0).val / 1024 * 1024 ≤ _ ∧ _ < (i 0).val / 1024 * 1024 + 1024; omega
  | ⟨1, _⟩ =>
    show win0_3.index _ (1 : Fin 2) * 512 ≤ (i 1).val ∧ (i 1).val < win0_3.index _ (1 : Fin 2) * 512 + 512
    rw [e1]; omega

/-- After the pass the first output array is the first input, normalised. -/
theorem final2 (c : Dev nD) : (dat0 V c).arrAt 2 cfg0.N = normRows (V c (Pipeline.arrRef spec0 0)) :=
  (dat0 V c).arrAt_eq_of_cover 2 (normRows (V c (Pipeline.arrRef spec0 0))) (fun t _ => flushed2_eq V c t) cover2

/-- After the pass the second output array is the second input, normalised. -/
theorem final3 (c : Dev nD) : (dat0 V c).arrAt 3 cfg0.N = normRows (V c (Pipeline.arrRef spec0 1)) :=
  (dat0 V c).arrAt_eq_of_cover 3 (normRows (V c (Pipeline.arrRef spec0 1))) (fun t _ => flushed3_eq V c t) cover3

end Cert.KernelIdeal.NormValue

end
-- ==== Proof.PairPayload.lean ====
/-
  The pairwise kernel's arithmetic at one entry, over the extended reals.

  One trip of the kernel's column loop takes the row block `v0` (1024 rows of 512 features), a column block
  `blk` (1024 columns of 512 features), the rows' class labels and the columns' class labels, and adds to each
  row's two running sums:

    * to the denominator, the sum over the block's columns `c` of  e(r, c) = exp ((∑ d, v0 r d · blk c d) · τ),
    * to the numerator, the same sum with e(r, c) replaced by 0 wherever the row's class differs from the column's,

  where τ is the inverse temperature the kernel multiplies by. The product of the two blocks is a plain sum over
  the 512 features (a matrix product into a zero accumulator), and each lane sum is a plain finite sum.
-/
import proofs.«143684_j42013370090174_2_alg».proof.Proof.Gen.KernelIdeal.Skeleton
import proofs.«143684_j42013370090174_2_alg».proof.Proof.LibColumnCast
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PairValue

open Cert.KernelIdeal Cert.KernelIdeal.Gen Idealize.ShloMosaic Idealize.ShloMosaic.ValueIdx

/-- The inverse temperature, as the kernel's named constant. -/
abbrev invTemp : EReal := Named.named (F := Ideal) Cert.KernelIdeal.κ "inv_temp" (φ := .f32) 0x41649249#32

/-- The row coordinate of the left operand's index is the result's row. -/
theorem lhs_row (i : S1024x1024.Idx) (q : dot_S1024x512_S1024x512_S1024x1024_1_1_0_0_n_n.contr.Idx) : (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
/-- The row coordinate of the right operand's index is the result's column. -/
theorem rhs_row (i : S1024x1024.Idx) (q : dot_S1024x512_S1024x512_S1024x1024_1_1_0_0_n_n.contr.Idx) : (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl

/-- The product of a row block with a column block, both 1024 × 512 and contracted over the 512 features, into a zero
    accumulator: entry (r, c) is the sum over the features of row r of the first times row c of the second. -/
theorem dot_apply (x y : FVec Ideal S1024x512 .bf16) (r c : Fin 1024) :
    matmul dot_S1024x512_S1024x512_S1024x1024_1_1_0_0_n_n none x y (constant (F := Ideal) S1024x1024 .f32 0x00000000#32) (ix2 r c)
      = ∑ d : Fin 512, x (ix2 r d) * y (ix2 c d) := by
  refine (Ideal.matmul_constant_zero_apply dot_S1024x512_S1024x512_S1024x1024_1_1_0_0_n_n none x y (ix2 r c)).trans ?_
  rw [← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 r c) ((contrEquiv1 dot_S1024x512_S1024x512_S1024x1024_1_1_0_0_n_n 512 rfl rfl).symm k) = ix2 r k := funext fun a => Fin.ext (by
    match a with
    | ⟨0, _⟩ => exact lhs_row _ _
    | ⟨1, _⟩ => exact (dot_S1024x512_S1024x512_S1024x1024_1_1_0_0_n_n.lhsIdx_val_of_single rfl _ _).trans hk)
  have er : dot_S1024x512_S1024x512_S1024x1024_1_1_0_0_n_n.rhsIdx (ix2 r c) ((contrEquiv1 dot_S1024x512_S1024x512_S1024x1024_1_1_0_0_n_n 512 rfl rfl).symm k) = ix2 c k := funext fun a => Fin.ext (by
    match a with
    | ⟨0, _⟩ => exact rhs_row _ _
    | ⟨1, _⟩ => exact (dot_S1024x512_S1024x512_S1024x1024_1_1_0_0_n_n.rhsIdx_val_of_single rfl _ _).trans hk)
  rw [el, er]

/-- The exponential of the scaled product, entry (r, c). -/
theorem pay3_apply (v0 blk : Vec Ideal S1024x512 .bf16) (r c : Fin 1024) :
    k1_pay3 (F := Ideal) v0 blk (ix2 r c) = Ideal.exp ((∑ d : Fin 512, v0 (ix2 r d) * blk (ix2 c d)) * invTemp) := by
  unfold k1_pay3
  refine congrArg Ideal.exp ?_
  refine congrArg (· * invTemp) ?_
  refine (dot_apply _ _ r c).trans ?_
  rw [shapeCast_self, shapeCast_self]

/-- A lane sum of a 1024 × 1024 block, viewed as a column, at row r: the sum over the block's columns. -/
theorem laneSum_apply (src : FVec Ideal S1024x1024 .f32) (hacc : (0x00000000#32 : BitVec 32) = 0x00000000#32)
    (h : S1024x1024.Reduces [1] S1024) (hc : S1024.ShapeCasts S1024x1) (r : Fin 1024) (u : Fin 1) :
    shapeCast S1024x1 (multiReduction .add [1] S1024 src 0x00000000#32 h (.inl rfl) hacc) hc (ix2 r u)
      = ∑ c : Fin 1024, src (ix2 r c) := by
  refine (shapeCast_a_a1_apply _ hc r u).trans ?_
  refine (Ideal.multiReduction_add_single src 0x00000000#32 h (.inl rfl) hacc (ix1 r)).trans ?_
  refine Finset.sum_congr rfl fun k _ => ?_
  exact congrArg src (funext fun a => Fin.ext (by match a with | ⟨0, _⟩ => rfl | ⟨1, _⟩ => rfl))

/-- One trip's denominator: the running sum plus the block's exponentials summed over its columns. -/
theorem pay4_apply (v0 blk : Vec Ideal S1024x512 .bf16) (acc : FVec Ideal S1024x1 .f32) (r : Fin 1024) (u : Fin 1) :
    k1_pay4 (F := Ideal) v0 acc blk (ix2 r u)
      = acc (ix2 r u) + ∑ c : Fin 1024, Ideal.exp ((∑ d : Fin 512, v0 (ix2 r d) * blk (ix2 c d)) * invTemp) := by
  unfold k1_pay4
  refine congrArg (acc (ix2 r u) + ·) ?_
  refine (laneSum_apply _ rfl _ _ r u).trans ?_
  exact Finset.sum_congr rfl fun c _ => pay3_apply v0 blk r c

/-- A column of row labels spread over the block's columns: entry (r, c) is the row's label. -/
theorem rowLabel_apply (v : IVec S1024x1 32) (h : S1024x1.Broadcasts S1024x1024) (r c : Fin 1024) :
    broadcastTo S1024x1024 v h (ix2 r c) = v (ix2 r 0) :=
  broadcastTo_apply v h (ix2 r c) (ix2 r 0) (fun a => by match a with | ⟨0, _⟩ => rfl | ⟨1, _⟩ => rfl)

/-- A row of column labels spread over the block's rows: entry (r, c) is the column's label. -/
theorem colLabel_apply (v : IVec S1x1024 32) (h : S1x1024.Broadcasts S1024x1024) (r c : Fin 1024) :
    broadcastTo S1024x1024 v h (ix2 r c) = v (ix2 0 c) :=
  broadcastTo_apply v h (ix2 r c) (ix2 0 c) (fun a => by match a with | ⟨0, _⟩ => rfl | ⟨1, _⟩ => rfl)

/-- One trip's numerator: the running sum plus the block's exponentials summed over the columns whose class is the
    row's, the other columns counting zero. -/
theorem pay5_apply (v0 blk : Vec Ideal S1024x512 .bf16) (v2 : Vec Ideal S1024x1 .i32) (lblk : Vec Ideal S1x1024 .i32)
    (acc : FVec Ideal S1024x1 .f32) (r : Fin 1024) (u : Fin 1) :
    k1_pay5 (F := Ideal) v0 v2 acc blk lblk (ix2 r u)
      = acc (ix2 r u) + ∑ c : Fin 1024, Scalar.select (IntOp.cmpi .eq (v2 (ix2 r 0)) (lblk (ix2 0 c)))
          (Ideal.exp ((∑ d : Fin 512, v0 (ix2 r d) * blk (ix2 c d)) * invTemp)) (Ideal.ofBits .f32 0x00000000#32) := by
  unfold k1_pay5
  refine congrArg (acc (ix2 r u) + ·) ?_
  refine (laneSum_apply _ rfl _ _ r u).trans ?_
  refine Finset.sum_congr rfl fun c _ => ?_
  show Scalar.select (IntOp.cmpi .eq (broadcastTo S1024x1024 (shapeCast S1024x1 v2 _) _ (ix2 r c)) (broadcastTo S1024x1024 (shapeCast S1x1024 lblk _) _ (ix2 r c)))
      (k1_pay3 (F := Ideal) v0 blk (ix2 r c)) _ = _
  rw [rowLabel_apply, colLabel_apply, shapeCast_self, shapeCast_self, pay3_apply]
  rfl

end Cert.KernelIdeal.PairValue

end
-- ==== Proof.LibChunkSum.lean ====
/-
  Sums taken in consecutive chunks, over any commutative additive monoid (the extended reals among them).

  * `sum_fin_mul_eq_chunks`: a sum over `Fin (m * n)` is the sum over the `m` chunks of the sum over the `n`
    positions inside a chunk, position `c` of chunk `j` being the index `c + n * j`.
  * `fold_add_eq_sum`: a sequence that starts at `init` and at each step adds the next term ends, after `m` steps,
    at `init` plus the sum of the `m` terms.
  * `fold_chunks_eq_sum`: the two together — accumulating chunk sums one chunk at a time gives `init` plus the whole sum.
  * `fold_chunks_eq_sum_of_eq`: the same over `Fin N` with `m * n = N`, the chunk positions written `c + n * k`.
-/
import Idealize.ShloMosaic.PureOps.Ideal.Laws

namespace Cert.Lib.ChunkSum

open Finset

variable {M : Type*} [AddCommMonoid M]

/-- A sum over `Fin (m * n)` taken chunk by chunk: `m` chunks of `n` consecutive indices. -/
theorem sum_fin_mul_eq_chunks (m n : ℕ) (f : Fin (m * n) → M) :
    ∑ k : Fin (m * n), f k = ∑ j : Fin m, ∑ c : Fin n, f (finProdFinEquiv (j, c)) := by
  rw [← Fintype.sum_prod_type']
  exact (Fintype.sum_equiv finProdFinEquiv _ _ (fun _ => rfl)).symm

/-- The index of position `c` in chunk `j`. -/
theorem finProdFinEquiv_val (m n : ℕ) (j : Fin m) (c : Fin n) :
    (finProdFinEquiv (j, c) : Fin (m * n)).val = c.val + n * j.val := rfl

/-- A running total that adds one term per step ends at the initial value plus the sum of the terms. -/
theorem fold_add_eq_sum (m : ℕ) (s : ℕ → M) (g : Fin m → M) (init : M)
    (h0 : s 0 = init) (hs : ∀ k : Fin m, s (k.val + 1) = s k.val + g k) :
    s m = init + ∑ j : Fin m, g j := by
  induction m with
  | zero => simp [h0]
  | succ m ih =>
    have h := ih (fun j => g j.castSucc) (fun k => hs k.castSucc)
    rw [Fin.sum_univ_castSucc, ← add_assoc, ← h]
    exact hs (Fin.last m)

/-- Accumulating the chunk sums of `f` one chunk at a time gives the initial value plus the whole sum of `f`. -/
theorem fold_chunks_eq_sum (m n : ℕ) (f : Fin (m * n) → M) (s : ℕ → M) (init : M)
    (h0 : s 0 = init)
    (hs : ∀ k : Fin m, s (k.val + 1) = s k.val + ∑ c : Fin n, f (finProdFinEquiv (k, c))) :
    s m = init + ∑ k : Fin (m * n), f k := by
  rw [sum_fin_mul_eq_chunks]
  exact fold_add_eq_sum m s _ init h0 hs

/-- Position `c` of chunk `k` lies inside the whole range. -/
theorem chunk_index_lt {m n N : ℕ} (hN : m * n = N) (k : Fin m) (c : Fin n) : c.val + n * k.val < N := by
  subst hN; exact (finProdFinEquiv (k, c)).isLt

/-- The same over `Fin N`, `m * n = N`: a running total that adds, at step `k`, the sum of `g` over the positions
    `c + n * k` of chunk `k`, ends at the initial value plus the sum of `g` over all of `Fin N`. -/
theorem fold_chunks_eq_sum_of_eq (m n N : ℕ) (hN : m * n = N) (g : Fin N → M) (s : ℕ → M) (init : M)
    (h0 : s 0 = init)
    (hs : ∀ k : Fin m, s (k.val + 1) = s k.val + ∑ c : Fin n, g ⟨c.val + n * k.val, chunk_index_lt hN k c⟩) :
    s m = init + ∑ j : Fin N, g j := by
  subst hN
  exact fold_chunks_eq_sum m n g s init h0 hs

end Cert.Lib.ChunkSum
-- ==== Proof.PairLoop.lean ====
/-
  The pairwise kernel's column loop, read as whole-range sums.

  The kernel walks the 8192 columns in 8 chunks of 1024. Chunk `k` is rows `1024·k … 1024·k + 1023` of the column
  operand and the same stretch of the column labels. Each trip adds the chunk's contribution to the two running sums
  (the payload lemmas), starting from zero, so after the last trip a row's denominator is zero plus the sum over ALL
  8192 columns of the exponential, and its numerator zero plus the sum over all columns of the exponential where the
  classes agree and of zero where they do not: a sum taken chunk by chunk is the sum.
-/
import proofs.«143684_j42013370090174_2_alg».proof.Proof.Gen.KernelIdeal.Frame
import proofs.«143684_j42013370090174_2_alg».proof.Proof.PairPayload
import proofs.«143684_j42013370090174_2_alg».proof.Proof.LibChunkSum

noncomputable section

namespace Cert.KernelIdeal.PairValue

open Cert.KernelIdeal Cert.KernelIdeal.Gen Idealize.ShloMosaic Idealize.ShloMosaic.ValueIdx

/-- The exponential of the scaled product of row `r` of the row block with column `j` of the whole column operand. -/
def expAt (v0 : Vec Ideal S1024x512 .bf16) (x1 : Vec Ideal S8192x512 .bf16) (r : Fin 1024) (j : Fin 8192) : EReal :=
  Ideal.exp ((∑ d : Fin 512, v0 (ix2 r d) * x1 (ix2 j d)) * invTemp)

/-- The same where row `r`'s class is column `j`'s, zero elsewhere. -/
def maskedAt (v0 : Vec Ideal S1024x512 .bf16) (v2 : Vec Ideal S1024x1 .i32) (x1 : Vec Ideal S8192x512 .bf16)
    (x3 : Vec Ideal S1x8192 .i32) (r : Fin 1024) (j : Fin 8192) : EReal :=
  Scalar.select (IntOp.cmpi .eq (v2 (ix2 r 0)) (x3 (ix2 0 j))) (expAt v0 x1 r j) (Ideal.ofBits .f32 0x00000000#32)

/-- Chunk `k` of the column operand, entry (c, d): row `c + 1024·k` of the operand. -/
theorem colBlock_apply (x1 : Vec Ideal S8192x512 .bf16) (k : Fin k1_t1_loop.trips) (c : Fin 1024) (d : Fin 512)
    (h : c.val + 1024 * k.val < 8192) :
    View.ld x1 (Rect.unit (s := S8192x512) (k1_off1 k) S1024x512.size (k1_off1_inb k)) (ix2 c d)
      = x1 (ix2 ⟨c.val + 1024 * k.val, h⟩ d) := by
  unfold View.ld
  refine congrArg x1 (funext fun a => Fin.ext ?_)
  match a with
  | ⟨0, _⟩ =>
    show (k1_off1 k) 0 + 1 * c.val = c.val + 1024 * k.val
    have e : (k1_off1 k) 0 = 1024 * k.val := congrFun (k1_off1_eq k) 0
    omega
  | ⟨1, _⟩ =>
    show (k1_off1 k) 1 + 1 * d.val = d.val
    have e : (k1_off1 k) 1 = 0 := congrFun (k1_off1_eq k) 1
    omega

/-- Chunk `k` of the column labels, entry (0, c): label `c + 1024·k`. -/
theorem labelBlock_apply (x3 : Vec Ideal S1x8192 .i32) (k : Fin k1_t1_loop.trips) (c : Fin 1024)
    (h : c.val + 1024 * k.val < 8192) :
    View.ld x3 (Rect.unit (s := S1x8192) (k1_off2 k) S1x1024.size (k1_off2_inb k)) (ix2 0 c)
      = x3 (ix2 0 ⟨c.val + 1024 * k.val, h⟩) := by
  unfold View.ld
  refine congrArg x3 (funext fun a => Fin.ext ?_)
  match a with
  | ⟨0, _⟩ =>
    show (k1_off2 k) 0 + 1 * 0 = 0
    have e : (k1_off2 k) 0 = 0 := congrFun (k1_off2_eq k) 0
    omega
  | ⟨1, _⟩ =>
    show (k1_off2 k) 1 + 1 * c.val = c.val + 1024 * k.val
    have e : (k1_off2 k) 1 = 1024 * k.val := congrFun (k1_off2_eq k) 1
    omega

/-- One trip's result, in the payloads: the two running sums advanced over chunk `k`. -/
theorem tripR_eq (𝒱 : Variants) (c : Dev nD) (bd : Option 𝒱.V) (i : grid1.Coords) (arg1 : Memref sig .tc .vmem S1024x512 .bf16) (harg1 : arg1.IsWhole) (arg2 : Memref sig .tc .vmem S8192x512 .bf16) (harg2 : arg2.IsWhole) (arg3 : Memref sig .tc .vmem S1024x1 .i32) (harg3 : arg3.IsWhole) (arg4 : Memref sig .tc .vmem S1x8192 .i32) (harg4 : arg4.IsWhole) (arg5 : Memref sig .tc .vmem S1024x1 .f32) (harg5 : arg5.IsWhole) (arg6 : Memref sig .tc .vmem S1024x1 .f32) (harg6 : arg6.IsWhole) (v0 : Vec Ideal S1024x512 .bf16) (v2 : Vec Ideal S1024x1 .i32) (X_arg2 : BufTy.Contents (Elt Ideal) arg2.view.ty) (X_arg4 : BufTy.Contents (Elt Ideal) arg4.view.ty) (k : Fin k1_t1_loop.trips) (acc : FVec Ideal S1024x1 .f32 × FVec Ideal S1024x1 .f32) :
    tripR_k1_t1 (F := Ideal) 𝒱 c bd i arg1 harg1 arg2 harg2 arg3 harg3 arg4 harg4 arg5 harg5 arg6 harg6 v0 v2 X_arg2 X_arg4 k acc
      = (k1_pay4 v0 acc.1 (View.readAt (Elt Ideal) arg2.view (Rect.unit (s := S8192x512) (k1_off1 k) S1024x512.size (k1_off1_inb k)).toLoadRect X_arg2),
         k1_pay5 v0 v2 acc.2 (View.readAt (Elt Ideal) arg2.view (Rect.unit (s := S8192x512) (k1_off1 k) S1024x512.size (k1_off1_inb k)).toLoadRect X_arg2)
           (View.readAt (Elt Ideal) arg4.view (Rect.unit (s := S1x8192) (k1_off2 k) S1x1024.size (k1_off2_inb k)).toLoadRect X_arg4)) := by
  unfold tripR_k1_t1 trip_k1_t1
  rfl

/-- A row's denominator after the loop: zero plus the sum of the exponentials over all 8192 columns. -/
theorem denom_apply (c : Dev nD) (i : grid1.Coords) (arg1 : Memref sig .tc .vmem S1024x512 .bf16) (harg1 : arg1.IsWhole) (arg2 : Memref sig .tc .vmem S8192x512 .bf16) (harg2 : arg2.IsWhole) (arg3 : Memref sig .tc .vmem S1024x1 .i32) (harg3 : arg3.IsWhole) (arg4 : Memref sig .tc .vmem S1x8192 .i32) (harg4 : arg4.IsWhole) (arg5 : Memref sig .tc .vmem S1024x1 .f32) (harg5 : arg5.IsWhole) (arg6 : Memref sig .tc .vmem S1024x1 .f32) (harg6 : arg6.IsWhole)
    (v0 : Vec Ideal S1024x512 .bf16) (v2 : Vec Ideal S1024x1 .i32) (x1 : Vec Ideal S8192x512 .bf16) (x3 : Vec Ideal S1x8192 .i32)
    (r : Fin 1024) (u : Fin 1) :
    (st_k1_t1 (F := Ideal) Variants.none c none i arg1 harg1 arg2 harg2 arg3 harg3 arg4 harg4 arg5 harg5 arg6 harg6 v0 v2 (harg2.unread x1) (harg4.unread x3)
        (k1_pay1, k1_pay2) k1_t1_loop.trips).1 (ix2 r u)
      = Ideal.ofBits .f32 0x00000000#32 + ∑ j : Fin 8192, expAt v0 x1 r j := by
  refine Cert.Lib.ChunkSum.fold_chunks_eq_sum_of_eq k1_t1_loop.trips 1024 8192 (by decide) (fun j => expAt v0 x1 r j)
    (fun n => (st_k1_t1 (F := Ideal) Variants.none c none i arg1 harg1 arg2 harg2 arg3 harg3 arg4 harg4 arg5 harg5 arg6 harg6 v0 v2 (harg2.unread x1) (harg4.unread x3)
        (k1_pay1, k1_pay2) n).1 (ix2 r u))
    (Ideal.ofBits .f32 0x00000000#32) rfl ?_
  intro k
  show (st_k1_t1 (F := Ideal) Variants.none c none i arg1 harg1 arg2 harg2 arg3 harg3 arg4 harg4 arg5 harg5 arg6 harg6 v0 v2 (harg2.unread x1) (harg4.unread x3)
        (k1_pay1, k1_pay2) (k.val + 1)).1 (ix2 r u) = _
  rw [st_k1_t1_succ (F := Ideal) Variants.none c none i arg1 harg1 arg2 harg2 arg3 harg3 arg4 harg4 arg5 harg5 arg6 harg6 v0 v2 (harg2.unread x1) (harg4.unread x3) (k1_pay1, k1_pay2) k, tripR_eq]
  refine (pay4_apply v0 _ _ r u).trans ?_
  refine congrArg (_ + ·) (Finset.sum_congr rfl fun cc _ => ?_)
  unfold expAt
  refine congrArg (fun z => Ideal.exp (z * invTemp)) (Finset.sum_congr rfl fun d _ => ?_)
  refine congrArg (v0 (ix2 r d) * ·) ?_
  rw [View.readAt_eq_ld, harg2.read_unread]
  exact colBlock_apply x1 k cc d _

/-- A row's numerator after the loop: zero plus the sum over all 8192 columns of the exponential where the classes
    agree and of zero where they do not. -/
theorem numer_apply (c : Dev nD) (i : grid1.Coords) (arg1 : Memref sig .tc .vmem S1024x512 .bf16) (harg1 : arg1.IsWhole) (arg2 : Memref sig .tc .vmem S8192x512 .bf16) (harg2 : arg2.IsWhole) (arg3 : Memref sig .tc .vmem S1024x1 .i32) (harg3 : arg3.IsWhole) (arg4 : Memref sig .tc .vmem S1x8192 .i32) (harg4 : arg4.IsWhole) (arg5 : Memref sig .tc .vmem S1024x1 .f32) (harg5 : arg5.IsWhole) (arg6 : Memref sig .tc .vmem S1024x1 .f32) (harg6 : arg6.IsWhole)
    (v0 : Vec Ideal S1024x512 .bf16) (v2 : Vec Ideal S1024x1 .i32) (x1 : Vec Ideal S8192x512 .bf16) (x3 : Vec Ideal S1x8192 .i32)
    (r : Fin 1024) (u : Fin 1) :
    (st_k1_t1 (F := Ideal) Variants.none c none i arg1 harg1 arg2 harg2 arg3 harg3 arg4 harg4 arg5 harg5 arg6 harg6 v0 v2 (harg2.unread x1) (harg4.unread x3)
        (k1_pay1, k1_pay2) k1_t1_loop.trips).2 (ix2 r u)
      = Ideal.ofBits .f32 0x00000000#32 + ∑ j : Fin 8192, maskedAt v0 v2 x1 x3 r j := by
  refine Cert.Lib.ChunkSum.fold_chunks_eq_sum_of_eq k1_t1_loop.trips 1024 8192 (by decide) (fun j => maskedAt v0 v2 x1 x3 r j)
    (fun n => (st_k1_t1 (F := Ideal) Variants.none c none i arg1 harg1 arg2 harg2 arg3 harg3 arg4 harg4 arg5 harg5 arg6 harg6 v0 v2 (harg2.unread x1) (harg4.unread x3)
        (k1_pay1, k1_pay2) n).2 (ix2 r u))
    (Ideal.ofBits .f32 0x00000000#32) rfl ?_
  intro k
  show (st_k1_t1 (F := Ideal) Variants.none c none i arg1 harg1 arg2 harg2 arg3 harg3 arg4 harg4 arg5 harg5 arg6 harg6 v0 v2 (harg2.unread x1) (harg4.unread x3)
        (k1_pay1, k1_pay2) (k.val + 1)).2 (ix2 r u) = _
  rw [st_k1_t1_succ (F := Ideal) Variants.none c none i arg1 harg1 arg2 harg2 arg3 harg3 arg4 harg4 arg5 harg5 arg6 harg6 v0 v2 (harg2.unread x1) (harg4.unread x3) (k1_pay1, k1_pay2) k, tripR_eq]
  refine (pay5_apply v0 _ v2 _ _ r u).trans ?_
  refine congrArg (_ + ·) (Finset.sum_congr rfl fun cc _ => ?_)
  unfold maskedAt expAt
  rw [View.readAt_eq_ld, View.readAt_eq_ld, harg2.read_unread, harg4.read_unread, labelBlock_apply x3 k cc (Cert.Lib.ChunkSum.chunk_index_lt (by decide : k1_t1_loop.trips * 1024 = 8192) k cc)]
  refine congrArg (fun z => Scalar.select _ (Ideal.exp (z * invTemp)) _) (Finset.sum_congr rfl fun d _ => ?_)
  refine congrArg (v0 (ix2 r d) * ·) ?_
  exact colBlock_apply x1 k cc d _

end Cert.KernelIdeal.PairValue

end
-- ==== Proof.PairArrays.lean ====
/-
  A pairwise pass, read as whole arrays.

  The pass runs over 8 grid points; point `t` takes rows `1024·t … 1024·t + 1023` of the row operand and of the row
  labels, the WHOLE column operand and all the column labels, and writes rows `1024·t … 1024·t + 1023` of the two
  output columns. The body's loop leaves in them the whole-range sums of the loop module, so after the pass the two
  output arrays hold, for every row of the row operand, the denominator and the numerator over all 8192 columns.
-/
import proofs.«143684_j42013370090174_2_alg».proof.Proof.Gen.KernelIdeal.Frame
import proofs.«143684_j42013370090174_2_alg».proof.Proof.PairLoop

set_option maxRecDepth 16384

noncomputable section

namespace Cert.KernelIdeal.PairValue

open Cert.KernelIdeal Cert.KernelIdeal.Gen Idealize.ShloMosaic Idealize.ShloMosaic.TcCoe Idealize.ShloMosaic.ValueIdx
open Idealize.ShloMosaic.Tactic
open Idealize.SL.Sem
open Idealize.ShloMosaic.Pipeline (Dat Cfg Window)

/-- For every row `b` of the row operand: zero plus the sum over all 8192 columns `j` of the column operand of
    exp ((∑ d, rows b d · cols j d) · τ), as a column. -/
def rowSums (rows cols : S8192x512.Idx → EReal) : S8192x1.Idx → EReal := fun i =>
  Ideal.ofBits .f32 0x00000000#32
    + ∑ j : Fin 8192, Ideal.exp ((∑ d : Fin 512, rows (ix2 (i 0) d) * cols (ix2 j d)) * invTemp)

/-- The same with the exponential counted only where row `b`'s class is column `j`'s, zero elsewhere. -/
def rowSumsPos (rows cols : S8192x512.Idx → EReal) (rl : S8192x1.Idx → BitVec 32) (cl : S1x8192.Idx → BitVec 32) :
    S8192x1.Idx → EReal := fun i =>
  Ideal.ofBits .f32 0x00000000#32
    + ∑ j : Fin 8192, Scalar.select (IntOp.cmpi .eq (rl (ix2 (i 0) 0)) (cl (ix2 0 j)))
        (Ideal.exp ((∑ d : Fin 512, rows (ix2 (i 0) d) * cols (ix2 j d)) * invTemp)) (Ideal.ofBits .f32 0x00000000#32)

/-- The denominators computed from a block of 1024 rows of the row operand and the whole column operand are the same
    rows of the whole-array denominators: a row's sums need only that row. -/
theorem denom_block (rows cols : S8192x512.Idx → EReal) (x0 : Vec Ideal S1024x512 .bf16) (x1 : Vec Ideal S8192x512 .bf16)
    (t : ℕ) (ht : ∀ r : Fin 1024, 1024 * t + r.val < 8192)
    (h0 : ∀ (r : Fin 1024) (e : Fin 512), x0 (ix2 r e) = rows (ix2 ⟨1024 * t + r.val, ht r⟩ e))
    (h1 : ∀ (j : Fin 8192) (e : Fin 512), x1 (ix2 j e) = cols (ix2 j e)) (r : Fin 1024) (u : Fin 1) :
    Ideal.ofBits .f32 0x00000000#32 + ∑ j : Fin 8192, expAt x0 x1 r j
      = rowSums rows cols (ix2 ⟨1024 * t + r.val, ht r⟩ u) := by
  unfold rowSums expAt
  simp only [h0, h1]

/-- The same for the numerators, with the row labels' block and all the column labels. -/
theorem numer_block (rows cols : S8192x512.Idx → EReal) (rl : S8192x1.Idx → BitVec 32) (cl : S1x8192.Idx → BitVec 32)
    (x0 : Vec Ideal S1024x512 .bf16) (x1 : Vec Ideal S8192x512 .bf16) (x2 : Vec Ideal S1024x1 .i32) (x3 : Vec Ideal S1x8192 .i32)
    (t : ℕ) (ht : ∀ r : Fin 1024, 1024 * t + r.val < 8192)
    (h0 : ∀ (r : Fin 1024) (e : Fin 512), x0 (ix2 r e) = rows (ix2 ⟨1024 * t + r.val, ht r⟩ e))
    (h1 : ∀ (j : Fin 8192) (e : Fin 512), x1 (ix2 j e) = cols (ix2 j e))
    (h2 : ∀ r : Fin 1024, x2 (ix2 r 0) = rl (ix2 ⟨1024 * t + r.val, ht r⟩ 0))
    (h3 : ∀ j : Fin 8192, x3 (ix2 0 j) = cl (ix2 0 j)) (r : Fin 1024) (u : Fin 1) :
    Ideal.ofBits .f32 0x00000000#32 + ∑ j : Fin 8192, maskedAt x0 x2 x1 x3 r j
      = rowSumsPos rows cols rl cl (ix2 ⟨1024 * t + r.val, ht r⟩ u) := by
  unfold rowSumsPos maskedAt expAt
  simp only [h0, h1, h2, h3]

theorem zero_offsets : (![0, 0] : Fin 2 → Nat) = fun _ => 0 := funext fun a => by fin_cases a <;> rfl

variable (V : (c : Dev nD) → (b : Ref sig .tc) → Buf (Elt Ideal) ((c : Thread nD τ).loc b))

/-- What the body leaves in the denominator's staging buffer: the loop's first carried value after the last trip. -/
theorem outDenom_eq (c : Dev nD) (i : grid1.Coords) (arg1 : Memref sig .tc .vmem S1024x512 .bf16) (harg1 : arg1.IsWhole) (arg2 : Memref sig .tc .vmem S8192x512 .bf16) (harg2 : arg2.IsWhole) (arg3 : Memref sig .tc .vmem S1024x1 .i32) (harg3 : arg3.IsWhole) (arg4 : Memref sig .tc .vmem S1x8192 .i32) (harg4 : arg4.IsWhole) (arg5 : Memref sig .tc .vmem S1024x1 .f32) (harg5 : arg5.IsWhole) (arg6 : Memref sig .tc .vmem S1024x1 .f32) (harg6 : arg6.IsWhole)
    (x0 : Vec Ideal S1024x512 .bf16) (x1 : Vec Ideal S8192x512 .bf16) (x2 : Vec Ideal S1024x1 .i32) (x3 : Vec Ideal S1x8192 .i32) :
    out1_A_4 (F := Ideal) c i arg1 harg1 arg2 harg2 arg3 harg3 arg4 harg4 arg5 harg5 arg6 harg6 x0 x1 x2 x3
      = (st_k1_t1 (F := Ideal) Variants.none c none i arg1 harg1 arg2 harg2 arg3 harg3 arg4 harg4 arg5 harg5 arg6 harg6 x0 x2 (harg2.unread x1) (harg4.unread x3)
          (k1_pay1, k1_pay2) k1_t1_loop.trips).1 := by
  unfold out1_A_4
  rw [View.read_writes_eq_canon _ _ _ (cover1_A_4 c i arg1 harg1 arg2 harg2 arg3 harg3 arg4 harg4 arg5 harg5 arg6 harg6 x0 x1 x2 x3)]
  unfold kernelRun1_A
  dsimp only
  rw [View.canon_unit_zero zero_offsets]
  simp only [View.readAt_eq_ld, harg1.read_unread, harg3.read_unread, View.ld_unit_zero (S := S1024x512) zero_offsets,
    View.ld_unit_zero (S := S1024x1) zero_offsets]

/-- What the body leaves in the numerator's staging buffer: the loop's second carried value after the last trip. -/
theorem outNumer_eq (c : Dev nD) (i : grid1.Coords) (arg1 : Memref sig .tc .vmem S1024x512 .bf16) (harg1 : arg1.IsWhole) (arg2 : Memref sig .tc .vmem S8192x512 .bf16) (harg2 : arg2.IsWhole) (arg3 : Memref sig .tc .vmem S1024x1 .i32) (harg3 : arg3.IsWhole) (arg4 : Memref sig .tc .vmem S1x8192 .i32) (harg4 : arg4.IsWhole) (arg5 : Memref sig .tc .vmem S1024x1 .f32) (harg5 : arg5.IsWhole) (arg6 : Memref sig .tc .vmem S1024x1 .f32) (harg6 : arg6.IsWhole)
    (x0 : Vec Ideal S1024x512 .bf16) (x1 : Vec Ideal S8192x512 .bf16) (x2 : Vec Ideal S1024x1 .i32) (x3 : Vec Ideal S1x8192 .i32) :
    out1_A_5 (F := Ideal) c i arg1 harg1 arg2 harg2 arg3 harg3 arg4 harg4 arg5 harg5 arg6 harg6 x0 x1 x2 x3
      = (st_k1_t1 (F := Ideal) Variants.none c none i arg1 harg1 arg2 harg2 arg3 harg3 arg4 harg4 arg5 harg5 arg6 harg6 x0 x2 (harg2.unread x1) (harg4.unread x3)
          (k1_pay1, k1_pay2) k1_t1_loop.trips).2 := by
  unfold out1_A_5
  rw [View.read_writes_eq_canon _ _ _ (cover1_A_5 c i arg1 harg1 arg2 harg2 arg3 harg3 arg4 harg4 arg5 harg5 arg6 harg6 x0 x1 x2 x3)]
  unfold kernelRun1_A
  dsimp only
  rw [View.canon_unit_zero zero_offsets]
  simp only [View.readAt_eq_ld, harg1.read_unread, harg3.read_unread, View.ld_unit_zero (S := S1024x512) zero_offsets,
    View.ld_unit_zero (S := S1024x1) zero_offsets]

/-- Point `t`'s blocks: block row `t` of the row operand, the row labels and both outputs; the whole of the column
    operand and of the column labels. -/
theorem block_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- Row `r` of block `t` is a row of the array. -/
theorem row_lt (t : Fin cfg1.N) (r : Fin 1024) : 1024 * t.val + r.val < 8192 := by
  have ht : t.val < 8 := t.isLt
  have hr := r.isLt
  omega

theorem emb_rows (t : Fin cfg1.N) (r : Fin 1024) (e : Fin 512) :
    ((cfg1.win 0).blk t).view.emb (ix2 r e) = ix2 ⟨1024 * t.val + r.val, row_lt t r⟩ e := by
  obtain ⟨e0, e1, -⟩ := block_index t
  funext a; apply Fin.ext
  match a with
  | ⟨0, _⟩ => show win1_0.index t (0 : Fin 2) * 1024 + 1 * r.val = 1024 * t.val + r.val; omega
  | ⟨1, _⟩ => show win1_0.index t (1 : Fin 2) * 512 + 1 * e.val = e.val; omega
theorem emb_cols (t : Fin cfg1.N) (j : Fin 8192) (e : Fin 512) :
    ((cfg1.win 1).blk t).view.emb (ix2 j e) = ix2 j e := by
  obtain ⟨-, -, e0, e1, -⟩ := block_index t
  funext a; apply Fin.ext
  match a with
  | ⟨0, _⟩ => show win1_1.index t (0 : Fin 2) * 8192 + 1 * j.val = j.val; omega
  | ⟨1, _⟩ => show win1_1.index t (1 : Fin 2) * 512 + 1 * e.val = e.val; omega
theorem emb_rowLabels (t : Fin cfg1.N) (r : Fin 1024) (u : Fin 1) :
    ((cfg1.win 2).blk t).view.emb (ix2 r u) = ix2 ⟨1024 * t.val + r.val, row_lt t r⟩ u := by
  obtain ⟨-, -, -, -, e0, e1, -⟩ := block_index t
  funext a; apply Fin.ext
  match a with
  | ⟨0, _⟩ => show win1_2.index t (0 : Fin 2) * 1024 + 1 * r.val = 1024 * t.val + r.val; omega
  | ⟨1, _⟩ => show win1_2.index t (1 : Fin 2) * 1 + 1 * u.val = u.val; omega
theorem emb_colLabels (t : Fin cfg1.N) (z : Fin 1) (j : Fin 8192) :
    ((cfg1.win 3).blk t).view.emb (ix2 z j) = ix2 z j := by
  obtain ⟨-, -, -, -, -, -, e0, e1, -⟩ := block_index t
  funext a; apply Fin.ext
  match a with
  | ⟨0, _⟩ => show win1_3.index t (0 : Fin 2) * 1 + 1 * z.val = z.val; omega
  | ⟨1, _⟩ => show win1_3.index t (1 : Fin 2) * 8192 + 1 * j.val = j.val; omega
theorem emb_outDenom (t : Fin cfg1.N) (r : Fin 1024) (u : Fin 1) :
    ((cfg1.win 4).blk t).view.emb (ix2 r u) = ix2 ⟨1024 * t.val + r.val, row_lt t r⟩ u := by
  obtain ⟨-, -, -, -, -, -, -, -, e0, e1, -⟩ := block_index t
  funext a; apply Fin.ext
  match a with
  | ⟨0, _⟩ => show win1_4.index t (0 : Fin 2) * 1024 + 1 * r.val = 1024 * t.val + r.val; omega
  | ⟨1, _⟩ => show win1_4.index t (1 : Fin 2) * 1 + 1 * u.val = u.val; omega
theorem emb_outNumer (t : Fin cfg1.N) (r : Fin 1024) (u : Fin 1) :
    ((cfg1.win 5).blk t).view.emb (ix2 r u) = ix2 ⟨1024 * t.val + r.val, row_lt t r⟩ u := by
  obtain ⟨-, -, -, -, -, -, -, -, -, -, e0, e1⟩ := block_index t
  funext a; apply Fin.ext
  match a with
  | ⟨0, _⟩ => show win1_5.index t (0 : Fin 2) * 1024 + 1 * r.val = 1024 * t.val + r.val; omega
  | ⟨1, _⟩ => show win1_5.index t (1 : Fin 2) * 1 + 1 * u.val = u.val; omega

/-- What point `t` writes back to the denominators is block `t` of the whole-array denominators. -/
theorem flushedDenom_eq (c : Dev nD) (t : Fin cfg1.N) :
    (dat1 V c).flushed 4 t = ((cfg1.win 4).blk t).view.read (Elt Ideal) (rowSums (V c (Pipeline.arrRef spec1 0) : S8192x512.Idx → EReal) (V c (Pipeline.arrRef spec1 1) : S8192x512.Idx → EReal)) := by
  show (cfg1.win 4).cut (grid1.coords t) ((dat1 V c).after 4 t) = _
  rw [after1_4]
  unfold outsAt1
  dsimp only
  rw [outDenom_eq]
  funext j
  obtain ⟨r, u, rfl⟩ : ∃ (r : Fin 1024) (u : Fin 1), j = ix2 r u := ⟨j 0, j 1, eq_ix2 j⟩
  refine (denom_apply c (grid1.coords t) (ms1_0 t) (hs1_0 t) (ms1_1 t) (hs1_1 t) (ms1_2 t) (hs1_2 t) (ms1_3 t) (hs1_3 t) (ms1_4 t) (hs1_4 t) (ms1_5 t) (hs1_5 t) (iblk1 V c 0 t) (iblk1 V c 2 t) (iblk1 V c 1 t) (iblk1 V c 3 t) r u).trans ?_
  refine (denom_block (V c (Pipeline.arrRef spec1 0)) (V c (Pipeline.arrRef spec1 1)) (iblk1 V c 0 t) (iblk1 V c 1 t) t.val (row_lt t) (fun r e => ?_) (fun j e => ?_) r u).trans ?_
  · show (V c (Pipeline.arrRef spec1 0)) (((cfg1.win 0).blk t).view.emb (ix2 r e)) = _
    rw [emb_rows]
  · show (V c (Pipeline.arrRef spec1 1)) (((cfg1.win 1).blk t).view.emb (ix2 j e)) = _
    rw [emb_cols]
  · show _ = rowSums (V c (Pipeline.arrRef spec1 0)) (V c (Pipeline.arrRef spec1 1)) (((cfg1.win 4).blk t).view.emb (ix2 r u))
    rw [emb_outDenom]

/-- What point `t` writes back to the numerators is block `t` of the whole-array numerators. -/
theorem flushedNumer_eq (c : Dev nD) (t : Fin cfg1.N) :
    (dat1 V c).flushed 5 t = ((cfg1.win 5).blk t).view.read (Elt Ideal) (rowSumsPos (V c (Pipeline.arrRef spec1 0) : S8192x512.Idx → EReal) (V c (Pipeline.arrRef spec1 1) : S8192x512.Idx → EReal) (V c (Pipeline.arrRef spec1 2) : S8192x1.Idx → BitVec 32) (V c (Pipeline.arrRef spec1 3) : S1x8192.Idx → BitVec 32)) := by
  show (cfg1.win 5).cut (grid1.coords t) ((dat1 V c).after 5 t) = _
  rw [after1_5]
  unfold outsAt1
  dsimp only
  rw [outNumer_eq]
  funext j
  obtain ⟨r, u, rfl⟩ : ∃ (r : Fin 1024) (u : Fin 1), j = ix2 r u := ⟨j 0, j 1, eq_ix2 j⟩
  refine (numer_apply c (grid1.coords t) (ms1_0 t) (hs1_0 t) (ms1_1 t) (hs1_1 t) (ms1_2 t) (hs1_2 t) (ms1_3 t) (hs1_3 t) (ms1_4 t) (hs1_4 t) (ms1_5 t) (hs1_5 t) (iblk1 V c 0 t) (iblk1 V c 2 t) (iblk1 V c 1 t) (iblk1 V c 3 t) r u).trans ?_
  refine (numer_block (V c (Pipeline.arrRef spec1 0)) (V c (Pipeline.arrRef spec1 1)) (V c (Pipeline.arrRef spec1 2)) (V c (Pipeline.arrRef spec1 3)) (iblk1 V c 0 t) (iblk1 V c 1 t) (iblk1 V c 2 t) (iblk1 V c 3 t) t.val (row_lt t)
    (fun r e => ?_) (fun j e => ?_) (fun r => ?_) (fun j => ?_) r u).trans ?_
  · show (V c (Pipeline.arrRef spec1 0)) (((cfg1.win 0).blk t).view.emb (ix2 r e)) = _
    rw [emb_rows]
  · show (V c (Pipeline.arrRef spec1 1)) (((cfg1.win 1).blk t).view.emb (ix2 j e)) = _
    rw [emb_cols]
  · show (V c (Pipeline.arrRef spec1 2)) (((cfg1.win 2).blk t).view.emb (ix2 r 0)) = _
    rw [emb_rowLabels]
  · show (V c (Pipeline.arrRef spec1 3)) (((cfg1.win 3).blk t).view.emb (ix2 0 j)) = _
    rw [emb_colLabels]
  · show _ = rowSumsPos (V c (Pipeline.arrRef spec1 0)) (V c (Pipeline.arrRef spec1 1)) (V c (Pipeline.arrRef spec1 2)) (V c (Pipeline.arrRef spec1 3)) (((cfg1.win 5).blk t).view.emb (ix2 r u))
    rw [emb_outNumer]

theorem mem_blkDenom (t : Fin cfg1.N) (i : S8192x1.Idx) :
    i ∈ ((cfg1.win 4).blk t).view.set ↔ ∀ a : Fin 2, win1_4.index t a * S1024x1.size a ≤ (i a).val ∧ (i a).val < win1_4.index t a * S1024x1.size a + S1024x1.size a := by
  show i ∈ ((View.whole main_v3_0).slice (win1_4.rect t)).set ↔ _
  rw [View.set_slice_whole, Rect.mem_set_unit]
  exact Iff.rfl
theorem mem_blkNumer (t : Fin cfg1.N) (i : S8192x1.Idx) :
    i ∈ ((cfg1.win 5).blk t).view.set ↔ ∀ a : Fin 2, win1_5.index t a * S1024x1.size a ≤ (i a).val ∧ (i a).val < win1_5.index t a * S1024x1.size a + S1024x1.size a := by
  show i ∈ ((View.whole main_v3_1).slice (win1_5.rect t)).set ↔ _
  rw [View.set_slice_whole, Rect.mem_set_unit]
  exact Iff.rfl

/-- Every row of an output column is in the block of the point its row names. -/
theorem coverDenom (i : S8192x1.Idx) : ∃ t : Fin cfg1.N, (cfg1.win 4).flush t = true ∧ i ∈ ((cfg1.win 4).blk t).view.set := by
  have hi0 : (i 0).val < 8192 := (i 0).isLt
  have hi1 : (i 1).val < 1 := (i 1).isLt
  refine ⟨⟨(i 0).val / 1024, by show _ < 8; omega⟩, flush1_4 _, ?_⟩
  rw [mem_blkDenom]
  obtain ⟨-, -, -, -, -, -, -, -, e0, e1, -⟩ := block_index ⟨(i 0).val / 1024, by show _ < 8; omega⟩
  intro a
  match a with
  | ⟨0, _⟩ =>
    show win1_4.index _ (0 : Fin 2) * 1024 ≤ (i 0).val ∧ (i 0).val < win1_4.index _ (0 : Fin 2) * 1024 + 1024
    rw [e0]; show (i 0).val / 1024 * 1024 ≤ _ ∧ _ < (i 0).val / 1024 * 1024 + 1024; omega
  | ⟨1, _⟩ =>
    show win1_4.index _ (1 : Fin 2) * 1 ≤ (i 1).val ∧ (i 1).val < win1_4.index _ (1 : Fin 2) * 1 + 1
    rw [e1]; omega
theorem coverNumer (i : S8192x1.Idx) : ∃ t : Fin cfg1.N, (cfg1.win 5).flush t = true ∧ i ∈ ((cfg1.win 5).blk t).view.set := by
  have hi0 : (i 0).val < 8192 := (i 0).isLt
  have hi1 : (i 1).val < 1 := (i 1).isLt
  refine ⟨⟨(i 0).val / 1024, by show _ < 8; omega⟩, flush1_5 _, ?_⟩
  rw [mem_blkNumer]
  obtain ⟨-, -, -, -, -, -, -, -, -, -, e0, e1⟩ := block_index ⟨(i 0).val / 1024, by show _ < 8; omega⟩
  intro a
  match a with
  | ⟨0, _⟩ =>
    show win1_5.index _ (0 : Fin 2) * 1024 ≤ (i 0).val ∧ (i 0).val < win1_5.index _ (0 : Fin 2) * 1024 + 1024
    rw [e0]; show (i 0).val / 1024 * 1024 ≤ _ ∧ _ < (i 0).val / 1024 * 1024 + 1024; omega
  | ⟨1, _⟩ =>
    show win1_5.index _ (1 : Fin 2) * 1 ≤ (i 1).val ∧ (i 1).val < win1_5.index _ (1 : Fin 2) * 1 + 1
    rw [e1]; omega

/-- After the pass the denominators' array holds the whole-array denominators of the operands as the pass found them. -/
theorem finalDenom (c : Dev nD) : (dat1 V c).arrAt 4 cfg1.N = rowSums (V c (Pipeline.arrRef spec1 0) : S8192x512.Idx → EReal) (V c (Pipeline.arrRef spec1 1) : S8192x512.Idx → EReal) :=
  (dat1 V c).arrAt_eq_of_cover 4 (rowSums (V c (Pipeline.arrRef spec1 0) : S8192x512.Idx → EReal) (V c (Pipeline.arrRef spec1 1) : S8192x512.Idx → EReal)) (fun t _ => flushedDenom_eq V c t) coverDenom

/-- After the pass the numerators' array holds the whole-array numerators. -/
theorem finalNumer (c : Dev nD) : (dat1 V c).arrAt 5 cfg1.N = rowSumsPos (V c (Pipeline.arrRef spec1 0) : S8192x512.Idx → EReal) (V c (Pipeline.arrRef spec1 1) : S8192x512.Idx → EReal) (V c (Pipeline.arrRef spec1 2) : S8192x1.Idx → BitVec 32) (V c (Pipeline.arrRef spec1 3) : S1x8192.Idx → BitVec 32) :=
  (dat1 V c).arrAt_eq_of_cover 5 (rowSumsPos (V c (Pipeline.arrRef spec1 0) : S8192x512.Idx → EReal) (V c (Pipeline.arrRef spec1 1) : S8192x512.Idx → EReal) (V c (Pipeline.arrRef spec1 2) : S8192x1.Idx → BitVec 32) (V c (Pipeline.arrRef spec1 3) : S1x8192.Idx → BitVec 32)) (fun t _ => flushedNumer_eq V c t) coverNumer

/-- The same with the operands the pass found named. -/
theorem finalDenom_of (c : Dev nD) (rows cols : S8192x512.Idx → EReal)
    (h0 : (V c (Pipeline.arrRef spec1 0) : S8192x512.Idx → EReal) = rows) (h1 : (V c (Pipeline.arrRef spec1 1) : S8192x512.Idx → EReal) = cols) :
    (dat1 V c).arrAt 4 cfg1.N = rowSums rows cols := by
  rw [finalDenom V c, h0, h1]

theorem finalNumer_of (c : Dev nD) (rows cols : S8192x512.Idx → EReal) (rl : S8192x1.Idx → BitVec 32) (cl : S1x8192.Idx → BitVec 32)
    (h0 : (V c (Pipeline.arrRef spec1 0) : S8192x512.Idx → EReal) = rows) (h1 : (V c (Pipeline.arrRef spec1 1) : S8192x512.Idx → EReal) = cols) (h2 : (V c (Pipeline.arrRef spec1 2) : S8192x1.Idx → BitVec 32) = rl) (h3 : (V c (Pipeline.arrRef spec1 3) : S1x8192.Idx → BitVec 32) = cl) :
    (dat1 V c).arrAt 5 cfg1.N = rowSumsPos rows cols rl cl := by
  rw [finalNumer V c, h0, h1, h2, h3]

end Cert.KernelIdeal.PairValue

end
-- ==== Proof.PairLoop2.lean ====
/-
  The second pairwise pass's column loop, read as whole-range sums (the same kernel body as the first pass's, over the
  second pass's own loop record).

  The kernel walks the 8192 columns in 8 chunks of 1024. Chunk `k` is rows `1024·k … 1024·k + 1023` of the column
  operand and the same stretch of the column labels. Each trip adds the chunk's contribution to the two running sums
  (the payload lemmas), starting from zero, so after the last trip a row's denominator is zero plus the sum over ALL
  8192 columns of the exponential, and its numerator zero plus the sum over all columns of the exponential where the
  classes agree and of zero where they do not: a sum taken chunk by chunk is the sum.
-/
import proofs.«143684_j42013370090174_2_alg».proof.Proof.Gen.KernelIdeal.Frame
import proofs.«143684_j42013370090174_2_alg».proof.Proof.PairPayload
import proofs.«143684_j42013370090174_2_alg».proof.Proof.PairLoop
import proofs.«143684_j42013370090174_2_alg».proof.Proof.LibChunkSum

noncomputable section

namespace Cert.KernelIdeal.PairValue2

open Cert.KernelIdeal Cert.KernelIdeal.Gen Cert.KernelIdeal.PairValue Idealize.ShloMosaic Idealize.ShloMosaic.ValueIdx

/-- Chunk `k` of the column operand, entry (c, d): row `c + 1024·k` of the operand. -/
theorem colBlock_apply (x1 : Vec Ideal S8192x512 .bf16) (k : Fin k2_t1_loop.trips) (c : Fin 1024) (d : Fin 512)
    (h : c.val + 1024 * k.val < 8192) :
    View.ld x1 (Rect.unit (s := S8192x512) (k2_off1 k) S1024x512.size (k2_off1_inb k)) (ix2 c d)
      = x1 (ix2 ⟨c.val + 1024 * k.val, h⟩ d) := by
  unfold View.ld
  refine congrArg x1 (funext fun a => Fin.ext ?_)
  match a with
  | ⟨0, _⟩ =>
    show (k2_off1 k) 0 + 1 * c.val = c.val + 1024 * k.val
    have e : (k2_off1 k) 0 = 1024 * k.val := congrFun (k2_off1_eq k) 0
    omega
  | ⟨1, _⟩ =>
    show (k2_off1 k) 1 + 1 * d.val = d.val
    have e : (k2_off1 k) 1 = 0 := congrFun (k2_off1_eq k) 1
    omega

/-- Chunk `k` of the column labels, entry (0, c): label `c + 1024·k`. -/
theorem labelBlock_apply (x3 : Vec Ideal S1x8192 .i32) (k : Fin k2_t1_loop.trips) (c : Fin 1024)
    (h : c.val + 1024 * k.val < 8192) :
    View.ld x3 (Rect.unit (s := S1x8192) (k2_off2 k) S1x1024.size (k2_off2_inb k)) (ix2 0 c)
      = x3 (ix2 0 ⟨c.val + 1024 * k.val, h⟩) := by
  unfold View.ld
  refine congrArg x3 (funext fun a => Fin.ext ?_)
  match a with
  | ⟨0, _⟩ =>
    show (k2_off2 k) 0 + 1 * 0 = 0
    have e : (k2_off2 k) 0 = 0 := congrFun (k2_off2_eq k) 0
    omega
  | ⟨1, _⟩ =>
    show (k2_off2 k) 1 + 1 * c.val = c.val + 1024 * k.val
    have e : (k2_off2 k) 1 = 1024 * k.val := congrFun (k2_off2_eq k) 1
    omega

/-- One trip's result, in the payloads: the two running sums advanced over chunk `k`. -/
theorem tripR_eq (𝒱 : Variants) (c : Dev nD) (bd : Option 𝒱.V) (i : grid2.Coords) (arg1 : Memref sig .tc .vmem S1024x512 .bf16) (harg1 : arg1.IsWhole) (arg2 : Memref sig .tc .vmem S8192x512 .bf16) (harg2 : arg2.IsWhole) (arg3 : Memref sig .tc .vmem S1024x1 .i32) (harg3 : arg3.IsWhole) (arg4 : Memref sig .tc .vmem S1x8192 .i32) (harg4 : arg4.IsWhole) (arg5 : Memref sig .tc .vmem S1024x1 .f32) (harg5 : arg5.IsWhole) (arg6 : Memref sig .tc .vmem S1024x1 .f32) (harg6 : arg6.IsWhole) (v0 : Vec Ideal S1024x512 .bf16) (v2 : Vec Ideal S1024x1 .i32) (X_arg2 : BufTy.Contents (Elt Ideal) arg2.view.ty) (X_arg4 : BufTy.Contents (Elt Ideal) arg4.view.ty) (k : Fin k2_t1_loop.trips) (acc : FVec Ideal S1024x1 .f32 × FVec Ideal S1024x1 .f32) :
    tripR_k2_t1 (F := Ideal) 𝒱 c bd i arg1 harg1 arg2 harg2 arg3 harg3 arg4 harg4 arg5 harg5 arg6 harg6 v0 v2 X_arg2 X_arg4 k acc
      = (k1_pay4 v0 acc.1 (View.readAt (Elt Ideal) arg2.view (Rect.unit (s := S8192x512) (k2_off1 k) S1024x512.size (k2_off1_inb k)).toLoadRect X_arg2),
         k1_pay5 v0 v2 acc.2 (View.readAt (Elt Ideal) arg2.view (Rect.unit (s := S8192x512) (k2_off1 k) S1024x512.size (k2_off1_inb k)).toLoadRect X_arg2)
           (View.readAt (Elt Ideal) arg4.view (Rect.unit (s := S1x8192) (k2_off2 k) S1x1024.size (k2_off2_inb k)).toLoadRect X_arg4)) := by
  unfold tripR_k2_t1 trip_k2_t1
  rfl

/-- A row's denominator after the loop: zero plus the sum of the exponentials over all 8192 columns. -/
theorem denom_apply (c : Dev nD) (i : grid2.Coords) (arg1 : Memref sig .tc .vmem S1024x512 .bf16) (harg1 : arg1.IsWhole) (arg2 : Memref sig .tc .vmem S8192x512 .bf16) (harg2 : arg2.IsWhole) (arg3 : Memref sig .tc .vmem S1024x1 .i32) (harg3 : arg3.IsWhole) (arg4 : Memref sig .tc .vmem S1x8192 .i32) (harg4 : arg4.IsWhole) (arg5 : Memref sig .tc .vmem S1024x1 .f32) (harg5 : arg5.IsWhole) (arg6 : Memref sig .tc .vmem S1024x1 .f32) (harg6 : arg6.IsWhole)
    (v0 : Vec Ideal S1024x512 .bf16) (v2 : Vec Ideal S1024x1 .i32) (x1 : Vec Ideal S8192x512 .bf16) (x3 : Vec Ideal S1x8192 .i32)
    (r : Fin 1024) (u : Fin 1) :
    (st_k2_t1 (F := Ideal) Variants.none c none i arg1 harg1 arg2 harg2 arg3 harg3 arg4 harg4 arg5 harg5 arg6 harg6 v0 v2 (harg2.unread x1) (harg4.unread x3)
        (k2_pay1, k2_pay2) k2_t1_loop.trips).1 (ix2 r u)
      = Ideal.ofBits .f32 0x00000000#32 + ∑ j : Fin 8192, expAt v0 x1 r j := by
  refine Cert.Lib.ChunkSum.fold_chunks_eq_sum_of_eq k2_t1_loop.trips 1024 8192 (by decide) (fun j => expAt v0 x1 r j)
    (fun n => (st_k2_t1 (F := Ideal) Variants.none c none i arg1 harg1 arg2 harg2 arg3 harg3 arg4 harg4 arg5 harg5 arg6 harg6 v0 v2 (harg2.unread x1) (harg4.unread x3)
        (k2_pay1, k2_pay2) n).1 (ix2 r u))
    (Ideal.ofBits .f32 0x00000000#32) rfl ?_
  intro k
  show (st_k2_t1 (F := Ideal) Variants.none c none i arg1 harg1 arg2 harg2 arg3 harg3 arg4 harg4 arg5 harg5 arg6 harg6 v0 v2 (harg2.unread x1) (harg4.unread x3)
        (k2_pay1, k2_pay2) (k.val + 1)).1 (ix2 r u) = _
  rw [st_k2_t1_succ (F := Ideal) Variants.none c none i arg1 harg1 arg2 harg2 arg3 harg3 arg4 harg4 arg5 harg5 arg6 harg6 v0 v2 (harg2.unread x1) (harg4.unread x3) (k2_pay1, k2_pay2) k, tripR_eq]
  refine (pay4_apply v0 _ _ r u).trans ?_
  refine congrArg (_ + ·) (Finset.sum_congr rfl fun cc _ => ?_)
  unfold expAt
  refine congrArg (fun z => Ideal.exp (z * invTemp)) (Finset.sum_congr rfl fun d _ => ?_)
  refine congrArg (v0 (ix2 r d) * ·) ?_
  rw [View.readAt_eq_ld, harg2.read_unread]
  exact colBlock_apply x1 k cc d _

/-- A row's numerator after the loop: zero plus the sum over all 8192 columns of the exponential where the classes
    agree and of zero where they do not. -/
theorem numer_apply (c : Dev nD) (i : grid2.Coords) (arg1 : Memref sig .tc .vmem S1024x512 .bf16) (harg1 : arg1.IsWhole) (arg2 : Memref sig .tc .vmem S8192x512 .bf16) (harg2 : arg2.IsWhole) (arg3 : Memref sig .tc .vmem S1024x1 .i32) (harg3 : arg3.IsWhole) (arg4 : Memref sig .tc .vmem S1x8192 .i32) (harg4 : arg4.IsWhole) (arg5 : Memref sig .tc .vmem S1024x1 .f32) (harg5 : arg5.IsWhole) (arg6 : Memref sig .tc .vmem S1024x1 .f32) (harg6 : arg6.IsWhole)
    (v0 : Vec Ideal S1024x512 .bf16) (v2 : Vec Ideal S1024x1 .i32) (x1 : Vec Ideal S8192x512 .bf16) (x3 : Vec Ideal S1x8192 .i32)
    (r : Fin 1024) (u : Fin 1) :
    (st_k2_t1 (F := Ideal) Variants.none c none i arg1 harg1 arg2 harg2 arg3 harg3 arg4 harg4 arg5 harg5 arg6 harg6 v0 v2 (harg2.unread x1) (harg4.unread x3)
        (k2_pay1, k2_pay2) k2_t1_loop.trips).2 (ix2 r u)
      = Ideal.ofBits .f32 0x00000000#32 + ∑ j : Fin 8192, maskedAt v0 v2 x1 x3 r j := by
  refine Cert.Lib.ChunkSum.fold_chunks_eq_sum_of_eq k2_t1_loop.trips 1024 8192 (by decide) (fun j => maskedAt v0 v2 x1 x3 r j)
    (fun n => (st_k2_t1 (F := Ideal) Variants.none c none i arg1 harg1 arg2 harg2 arg3 harg3 arg4 harg4 arg5 harg5 arg6 harg6 v0 v2 (harg2.unread x1) (harg4.unread x3)
        (k2_pay1, k2_pay2) n).2 (ix2 r u))
    (Ideal.ofBits .f32 0x00000000#32) rfl ?_
  intro k
  show (st_k2_t1 (F := Ideal) Variants.none c none i arg1 harg1 arg2 harg2 arg3 harg3 arg4 harg4 arg5 harg5 arg6 harg6 v0 v2 (harg2.unread x1) (harg4.unread x3)
        (k2_pay1, k2_pay2) (k.val + 1)).2 (ix2 r u) = _
  rw [st_k2_t1_succ (F := Ideal) Variants.none c none i arg1 harg1 arg2 harg2 arg3 harg3 arg4 harg4 arg5 harg5 arg6 harg6 v0 v2 (harg2.unread x1) (harg4.unread x3) (k2_pay1, k2_pay2) k, tripR_eq]
  refine (pay5_apply v0 _ v2 _ _ r u).trans ?_
  refine congrArg (_ + ·) (Finset.sum_congr rfl fun cc _ => ?_)
  unfold maskedAt expAt
  rw [View.readAt_eq_ld, View.readAt_eq_ld, harg2.read_unread, harg4.read_unread, labelBlock_apply x3 k cc (Cert.Lib.ChunkSum.chunk_index_lt (by decide : k2_t1_loop.trips * 1024 = 8192) k cc)]
  refine congrArg (fun z => Scalar.select _ (Ideal.exp (z * invTemp)) _) (Finset.sum_congr rfl fun d _ => ?_)
  refine congrArg (v0 (ix2 r d) * ·) ?_
  exact colBlock_apply x1 k cc d _

end Cert.KernelIdeal.PairValue2

end
-- ==== Proof.PairArrays2.lean ====
/-
  A pairwise pass, read as whole arrays.

  The pass runs over 8 grid points; point `t` takes rows `1024·t … 1024·t + 1023` of the row operand and of the row
  labels, the WHOLE column operand and all the column labels, and writes rows `1024·t … 1024·t + 1023` of the two
  output columns. The body's loop leaves in them the whole-range sums of the loop module, so after the pass the two
  output arrays hold, for every row of the row operand, the denominator and the numerator over all 8192 columns.
-/
import proofs.«143684_j42013370090174_2_alg».proof.Proof.Gen.KernelIdeal.Frame
import proofs.«143684_j42013370090174_2_alg».proof.Proof.PairLoop2
import proofs.«143684_j42013370090174_2_alg».proof.Proof.PairArrays

set_option maxRecDepth 16384

noncomputable section

namespace Cert.KernelIdeal.PairValue2

open Cert.KernelIdeal Cert.KernelIdeal.Gen Cert.KernelIdeal.PairValue Idealize.ShloMosaic Idealize.ShloMosaic.TcCoe Idealize.ShloMosaic.ValueIdx
open Idealize.ShloMosaic.Tactic
open Idealize.SL.Sem
open Idealize.ShloMosaic.Pipeline (Dat Cfg Window)

variable (V : (c : Dev nD) → (b : Ref sig .tc) → Buf (Elt Ideal) ((c : Thread nD τ).loc b))

/-- What the body leaves in the denominator's staging buffer: the loop's first carried value after the last trip. -/
theorem outDenom_eq (c : Dev nD) (i : grid2.Coords) (arg1 : Memref sig .tc .vmem S1024x512 .bf16) (harg1 : arg1.IsWhole) (arg2 : Memref sig .tc .vmem S8192x512 .bf16) (harg2 : arg2.IsWhole) (arg3 : Memref sig .tc .vmem S1024x1 .i32) (harg3 : arg3.IsWhole) (arg4 : Memref sig .tc .vmem S1x8192 .i32) (harg4 : arg4.IsWhole) (arg5 : Memref sig .tc .vmem S1024x1 .f32) (harg5 : arg5.IsWhole) (arg6 : Memref sig .tc .vmem S1024x1 .f32) (harg6 : arg6.IsWhole)
    (x0 : Vec Ideal S1024x512 .bf16) (x1 : Vec Ideal S8192x512 .bf16) (x2 : Vec Ideal S1024x1 .i32) (x3 : Vec Ideal S1x8192 .i32) :
    out2_A_4 (F := Ideal) c i arg1 harg1 arg2 harg2 arg3 harg3 arg4 harg4 arg5 harg5 arg6 harg6 x0 x1 x2 x3
      = (st_k2_t1 (F := Ideal) Variants.none c none i arg1 harg1 arg2 harg2 arg3 harg3 arg4 harg4 arg5 harg5 arg6 harg6 x0 x2 (harg2.unread x1) (harg4.unread x3)
          (k2_pay1, k2_pay2) k2_t1_loop.trips).1 := by
  unfold out2_A_4
  rw [View.read_writes_eq_canon _ _ _ (cover2_A_4 c i arg1 harg1 arg2 harg2 arg3 harg3 arg4 harg4 arg5 harg5 arg6 harg6 x0 x1 x2 x3)]
  unfold kernelRun2_A
  dsimp only
  rw [View.canon_unit_zero zero_offsets]
  simp only [View.readAt_eq_ld, harg1.read_unread, harg3.read_unread, View.ld_unit_zero (S := S1024x512) zero_offsets,
    View.ld_unit_zero (S := S1024x1) zero_offsets]

/-- What the body leaves in the numerator's staging buffer: the loop's second carried value after the last trip. -/
theorem outNumer_eq (c : Dev nD) (i : grid2.Coords) (arg1 : Memref sig .tc .vmem S1024x512 .bf16) (harg1 : arg1.IsWhole) (arg2 : Memref sig .tc .vmem S8192x512 .bf16) (harg2 : arg2.IsWhole) (arg3 : Memref sig .tc .vmem S1024x1 .i32) (harg3 : arg3.IsWhole) (arg4 : Memref sig .tc .vmem S1x8192 .i32) (harg4 : arg4.IsWhole) (arg5 : Memref sig .tc .vmem S1024x1 .f32) (harg5 : arg5.IsWhole) (arg6 : Memref sig .tc .vmem S1024x1 .f32) (harg6 : arg6.IsWhole)
    (x0 : Vec Ideal S1024x512 .bf16) (x1 : Vec Ideal S8192x512 .bf16) (x2 : Vec Ideal S1024x1 .i32) (x3 : Vec Ideal S1x8192 .i32) :
    out2_A_5 (F := Ideal) c i arg1 harg1 arg2 harg2 arg3 harg3 arg4 harg4 arg5 harg5 arg6 harg6 x0 x1 x2 x3
      = (st_k2_t1 (F := Ideal) Variants.none c none i arg1 harg1 arg2 harg2 arg3 harg3 arg4 harg4 arg5 harg5 arg6 harg6 x0 x2 (harg2.unread x1) (harg4.unread x3)
          (k2_pay1, k2_pay2) k2_t1_loop.trips).2 := by
  unfold out2_A_5
  rw [View.read_writes_eq_canon _ _ _ (cover2_A_5 c i arg1 harg1 arg2 harg2 arg3 harg3 arg4 harg4 arg5 harg5 arg6 harg6 x0 x1 x2 x3)]
  unfold kernelRun2_A
  dsimp only
  rw [View.canon_unit_zero zero_offsets]
  simp only [View.readAt_eq_ld, harg1.read_unread, harg3.read_unread, View.ld_unit_zero (S := S1024x512) zero_offsets,
    View.ld_unit_zero (S := S1024x1) zero_offsets]

/-- Point `t`'s blocks: block row `t` of the row operand, the row labels and both outputs; the whole of the column
    operand and of the column labels. -/
theorem block_index : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- Row `r` of block `t` is a row of the array. -/
theorem row_lt (t : Fin cfg2.N) (r : Fin 1024) : 1024 * t.val + r.val < 8192 := by
  have ht : t.val < 8 := t.isLt
  have hr := r.isLt
  omega

theorem emb_rows (t : Fin cfg2.N) (r : Fin 1024) (e : Fin 512) :
    ((cfg2.win 0).blk t).view.emb (ix2 r e) = ix2 ⟨1024 * t.val + r.val, row_lt t r⟩ e := by
  obtain ⟨e0, e1, -⟩ := block_index t
  funext a; apply Fin.ext
  match a with
  | ⟨0, _⟩ => show win2_0.index t (0 : Fin 2) * 1024 + 1 * r.val = 1024 * t.val + r.val; omega
  | ⟨1, _⟩ => show win2_0.index t (1 : Fin 2) * 512 + 1 * e.val = e.val; omega
theorem emb_cols (t : Fin cfg2.N) (j : Fin 8192) (e : Fin 512) :
    ((cfg2.win 1).blk t).view.emb (ix2 j e) = ix2 j e := by
  obtain ⟨-, -, e0, e1, -⟩ := block_index t
  funext a; apply Fin.ext
  match a with
  | ⟨0, _⟩ => show win2_1.index t (0 : Fin 2) * 8192 + 1 * j.val = j.val; omega
  | ⟨1, _⟩ => show win2_1.index t (1 : Fin 2) * 512 + 1 * e.val = e.val; omega
theorem emb_rowLabels (t : Fin cfg2.N) (r : Fin 1024) (u : Fin 1) :
    ((cfg2.win 2).blk t).view.emb (ix2 r u) = ix2 ⟨1024 * t.val + r.val, row_lt t r⟩ u := by
  obtain ⟨-, -, -, -, e0, e1, -⟩ := block_index t
  funext a; apply Fin.ext
  match a with
  | ⟨0, _⟩ => show win2_2.index t (0 : Fin 2) * 1024 + 1 * r.val = 1024 * t.val + r.val; omega
  | ⟨1, _⟩ => show win2_2.index t (1 : Fin 2) * 1 + 1 * u.val = u.val; omega
theorem emb_colLabels (t : Fin cfg2.N) (z : Fin 1) (j : Fin 8192) :
    ((cfg2.win 3).blk t).view.emb (ix2 z j) = ix2 z j := by
  obtain ⟨-, -, -, -, -, -, e0, e1, -⟩ := block_index t
  funext a; apply Fin.ext
  match a with
  | ⟨0, _⟩ => show win2_3.index t (0 : Fin 2) * 1 + 1 * z.val = z.val; omega
  | ⟨1, _⟩ => show win2_3.index t (1 : Fin 2) * 8192 + 1 * j.val = j.val; omega
theorem emb_outDenom (t : Fin cfg2.N) (r : Fin 1024) (u : Fin 1) :
    ((cfg2.win 4).blk t).view.emb (ix2 r u) = ix2 ⟨1024 * t.val + r.val, row_lt t r⟩ u := by
  obtain ⟨-, -, -, -, -, -, -, -, e0, e1, -⟩ := block_index t
  funext a; apply Fin.ext
  match a with
  | ⟨0, _⟩ => show win2_4.index t (0 : Fin 2) * 1024 + 1 * r.val = 1024 * t.val + r.val; omega
  | ⟨1, _⟩ => show win2_4.index t (1 : Fin 2) * 1 + 1 * u.val = u.val; omega
theorem emb_outNumer (t : Fin cfg2.N) (r : Fin 1024) (u : Fin 1) :
    ((cfg2.win 5).blk t).view.emb (ix2 r u) = ix2 ⟨1024 * t.val + r.val, row_lt t r⟩ u := by
  obtain ⟨-, -, -, -, -, -, -, -, -, -, e0, e1⟩ := block_index t
  funext a; apply Fin.ext
  match a with
  | ⟨0, _⟩ => show win2_5.index t (0 : Fin 2) * 1024 + 1 * r.val = 1024 * t.val + r.val; omega
  | ⟨1, _⟩ => show win2_5.index t (1 : Fin 2) * 1 + 1 * u.val = u.val; omega

/-- What point `t` writes back to the denominators is block `t` of the whole-array denominators. -/
theorem flushedDenom_eq (c : Dev nD) (t : Fin cfg2.N) :
    (dat2 V c).flushed 4 t = ((cfg2.win 4).blk t).view.read (Elt Ideal) (rowSums (V c (Pipeline.arrRef spec2 0) : S8192x512.Idx → EReal) (V c (Pipeline.arrRef spec2 1) : S8192x512.Idx → EReal)) := by
  show (cfg2.win 4).cut (grid2.coords t) ((dat2 V c).after 4 t) = _
  rw [after2_4]
  unfold outsAt2
  dsimp only
  rw [outDenom_eq]
  funext j
  obtain ⟨r, u, rfl⟩ : ∃ (r : Fin 1024) (u : Fin 1), j = ix2 r u := ⟨j 0, j 1, eq_ix2 j⟩
  refine (denom_apply c (grid2.coords t) (ms2_0 t) (hs2_0 t) (ms2_1 t) (hs2_1 t) (ms2_2 t) (hs2_2 t) (ms2_3 t) (hs2_3 t) (ms2_4 t) (hs2_4 t) (ms2_5 t) (hs2_5 t) (iblk2 V c 0 t) (iblk2 V c 2 t) (iblk2 V c 1 t) (iblk2 V c 3 t) r u).trans ?_
  refine (denom_block (V c (Pipeline.arrRef spec2 0)) (V c (Pipeline.arrRef spec2 1)) (iblk2 V c 0 t) (iblk2 V c 1 t) t.val (row_lt t) (fun r e => ?_) (fun j e => ?_) r u).trans ?_
  · show (V c (Pipeline.arrRef spec2 0)) (((cfg2.win 0).blk t).view.emb (ix2 r e)) = _
    rw [emb_rows]
  · show (V c (Pipeline.arrRef spec2 1)) (((cfg2.win 1).blk t).view.emb (ix2 j e)) = _
    rw [emb_cols]
  · show _ = rowSums (V c (Pipeline.arrRef spec2 0)) (V c (Pipeline.arrRef spec2 1)) (((cfg2.win 4).blk t).view.emb (ix2 r u))
    rw [emb_outDenom]

/-- What point `t` writes back to the numerators is block `t` of the whole-array numerators. -/
theorem flushedNumer_eq (c : Dev nD) (t : Fin cfg2.N) :
    (dat2 V c).flushed 5 t = ((cfg2.win 5).blk t).view.read (Elt Ideal) (rowSumsPos (V c (Pipeline.arrRef spec2 0) : S8192x512.Idx → EReal) (V c (Pipeline.arrRef spec2 1) : S8192x512.Idx → EReal) (V c (Pipeline.arrRef spec2 2) : S8192x1.Idx → BitVec 32) (V c (Pipeline.arrRef spec2 3) : S1x8192.Idx → BitVec 32)) := by
  show (cfg2.win 5).cut (grid2.coords t) ((dat2 V c).after 5 t) = _
  rw [after2_5]
  unfold outsAt2
  dsimp only
  rw [outNumer_eq]
  funext j
  obtain ⟨r, u, rfl⟩ : ∃ (r : Fin 1024) (u : Fin 1), j = ix2 r u := ⟨j 0, j 1, eq_ix2 j⟩
  refine (numer_apply c (grid2.coords t) (ms2_0 t) (hs2_0 t) (ms2_1 t) (hs2_1 t) (ms2_2 t) (hs2_2 t) (ms2_3 t) (hs2_3 t) (ms2_4 t) (hs2_4 t) (ms2_5 t) (hs2_5 t) (iblk2 V c 0 t) (iblk2 V c 2 t) (iblk2 V c 1 t) (iblk2 V c 3 t) r u).trans ?_
  refine (numer_block (V c (Pipeline.arrRef spec2 0)) (V c (Pipeline.arrRef spec2 1)) (V c (Pipeline.arrRef spec2 2)) (V c (Pipeline.arrRef spec2 3)) (iblk2 V c 0 t) (iblk2 V c 1 t) (iblk2 V c 2 t) (iblk2 V c 3 t) t.val (row_lt t)
    (fun r e => ?_) (fun j e => ?_) (fun r => ?_) (fun j => ?_) r u).trans ?_
  · show (V c (Pipeline.arrRef spec2 0)) (((cfg2.win 0).blk t).view.emb (ix2 r e)) = _
    rw [emb_rows]
  · show (V c (Pipeline.arrRef spec2 1)) (((cfg2.win 1).blk t).view.emb (ix2 j e)) = _
    rw [emb_cols]
  · show (V c (Pipeline.arrRef spec2 2)) (((cfg2.win 2).blk t).view.emb (ix2 r 0)) = _
    rw [emb_rowLabels]
  · show (V c (Pipeline.arrRef spec2 3)) (((cfg2.win 3).blk t).view.emb (ix2 0 j)) = _
    rw [emb_colLabels]
  · show _ = rowSumsPos (V c (Pipeline.arrRef spec2 0)) (V c (Pipeline.arrRef spec2 1)) (V c (Pipeline.arrRef spec2 2)) (V c (Pipeline.arrRef spec2 3)) (((cfg2.win 5).blk t).view.emb (ix2 r u))
    rw [emb_outNumer]

theorem mem_blkDenom (t : Fin cfg2.N) (i : S8192x1.Idx) :
    i ∈ ((cfg2.win 4).blk t).view.set ↔ ∀ a : Fin 2, win2_4.index t a * S1024x1.size a ≤ (i a).val ∧ (i a).val < win2_4.index t a * S1024x1.size a + S1024x1.size a := by
  show i ∈ ((View.whole main_v6_0).slice (win2_4.rect t)).set ↔ _
  rw [View.set_slice_whole, Rect.mem_set_unit]
  exact Iff.rfl
theorem mem_blkNumer (t : Fin cfg2.N) (i : S8192x1.Idx) :
    i ∈ ((cfg2.win 5).blk t).view.set ↔ ∀ a : Fin 2, win2_5.index t a * S1024x1.size a ≤ (i a).val ∧ (i a).val < win2_5.index t a * S1024x1.size a + S1024x1.size a := by
  show i ∈ ((View.whole main_v6_1).slice (win2_5.rect t)).set ↔ _
  rw [View.set_slice_whole, Rect.mem_set_unit]
  exact Iff.rfl

/-- Every row of an output column is in the block of the point its row names. -/
theorem coverDenom (i : S8192x1.Idx) : ∃ t : Fin cfg2.N, (cfg2.win 4).flush t = true ∧ i ∈ ((cfg2.win 4).blk t).view.set := by
  have hi0 : (i 0).val < 8192 := (i 0).isLt
  have hi1 : (i 1).val < 1 := (i 1).isLt
  refine ⟨⟨(i 0).val / 1024, by show _ < 8; omega⟩, flush2_4 _, ?_⟩
  rw [mem_blkDenom]
  obtain ⟨-, -, -, -, -, -, -, -, e0, e1, -⟩ := block_index ⟨(i 0).val / 1024, by show _ < 8; omega⟩
  intro a
  match a with
  | ⟨0, _⟩ =>
    show win2_4.index _ (0 : Fin 2) * 1024 ≤ (i 0).val ∧ (i 0).val < win2_4.index _ (0 : Fin 2) * 1024 + 1024
    rw [e0]; show (i 0).val / 1024 * 1024 ≤ _ ∧ _ < (i 0).val / 1024 * 1024 + 1024; omega
  | ⟨1, _⟩ =>
    show win2_4.index _ (1 : Fin 2) * 1 ≤ (i 1).val ∧ (i 1).val < win2_4.index _ (1 : Fin 2) * 1 + 1
    rw [e1]; omega
theorem coverNumer (i : S8192x1.Idx) : ∃ t : Fin cfg2.N, (cfg2.win 5).flush t = true ∧ i ∈ ((cfg2.win 5).blk t).view.set := by
  have hi0 : (i 0).val < 8192 := (i 0).isLt
  have hi1 : (i 1).val < 1 := (i 1).isLt
  refine ⟨⟨(i 0).val / 1024, by show _ < 8; omega⟩, flush2_5 _, ?_⟩
  rw [mem_blkNumer]
  obtain ⟨-, -, -, -, -, -, -, -, -, -, e0, e1⟩ := block_index ⟨(i 0).val / 1024, by show _ < 8; omega⟩
  intro a
  match a with
  | ⟨0, _⟩ =>
    show win2_5.index _ (0 : Fin 2) * 1024 ≤ (i 0).val ∧ (i 0).val < win2_5.index _ (0 : Fin 2) * 1024 + 1024
    rw [e0]; show (i 0).val / 1024 * 1024 ≤ _ ∧ _ < (i 0).val / 1024 * 1024 + 1024; omega
  | ⟨1, _⟩ =>
    show win2_5.index _ (1 : Fin 2) * 1 ≤ (i 1).val ∧ (i 1).val < win2_5.index _ (1 : Fin 2) * 1 + 1
    rw [e1]; omega

/-- After the pass the denominators' array holds the whole-array denominators of the operands as the pass found them. -/
theorem finalDenom (c : Dev nD) : (dat2 V c).arrAt 4 cfg2.N = rowSums (V c (Pipeline.arrRef spec2 0) : S8192x512.Idx → EReal) (V c (Pipeline.arrRef spec2 1) : S8192x512.Idx → EReal) :=
  (dat2 V c).arrAt_eq_of_cover 4 (rowSums (V c (Pipeline.arrRef spec2 0) : S8192x512.Idx → EReal) (V c (Pipeline.arrRef spec2 1) : S8192x512.Idx → EReal)) (fun t _ => flushedDenom_eq V c t) coverDenom

/-- After the pass the numerators' array holds the whole-array numerators. -/
theorem finalNumer (c : Dev nD) : (dat2 V c).arrAt 5 cfg2.N = rowSumsPos (V c (Pipeline.arrRef spec2 0) : S8192x512.Idx → EReal) (V c (Pipeline.arrRef spec2 1) : S8192x512.Idx → EReal) (V c (Pipeline.arrRef spec2 2) : S8192x1.Idx → BitVec 32) (V c (Pipeline.arrRef spec2 3) : S1x8192.Idx → BitVec 32) :=
  (dat2 V c).arrAt_eq_of_cover 5 (rowSumsPos (V c (Pipeline.arrRef spec2 0) : S8192x512.Idx → EReal) (V c (Pipeline.arrRef spec2 1) : S8192x512.Idx → EReal) (V c (Pipeline.arrRef spec2 2) : S8192x1.Idx → BitVec 32) (V c (Pipeline.arrRef spec2 3) : S1x8192.Idx → BitVec 32)) (fun t _ => flushedNumer_eq V c t) coverNumer

/-- The same with the operands the pass found named. -/
theorem finalDenom_of (c : Dev nD) (rows cols : S8192x512.Idx → EReal)
    (h0 : (V c (Pipeline.arrRef spec2 0) : S8192x512.Idx → EReal) = rows) (h1 : (V c (Pipeline.arrRef spec2 1) : S8192x512.Idx → EReal) = cols) :
    (dat2 V c).arrAt 4 cfg2.N = rowSums rows cols := by
  rw [finalDenom V c, h0, h1]

theorem finalNumer_of (c : Dev nD) (rows cols : S8192x512.Idx → EReal) (rl : S8192x1.Idx → BitVec 32) (cl : S1x8192.Idx → BitVec 32)
    (h0 : (V c (Pipeline.arrRef spec2 0) : S8192x512.Idx → EReal) = rows) (h1 : (V c (Pipeline.arrRef spec2 1) : S8192x512.Idx → EReal) = cols) (h2 : (V c (Pipeline.arrRef spec2 2) : S8192x1.Idx → BitVec 32) = rl) (h3 : (V c (Pipeline.arrRef spec2 3) : S1x8192.Idx → BitVec 32) = cl) :
    (dat2 V c).arrAt 5 cfg2.N = rowSumsPos rows cols rl cl := by
  rw [finalNumer V c, h0, h1, h2, h3]

end Cert.KernelIdeal.PairValue2

end
-- ==== Proof.LossTail.lean ====
/-
  The last stretch of both programs, as one function of the four per-row sums.

  For each of the 8192 rows `b` both programs hold a denominator `rs b` (the sum over all columns of the
  exponentials) and a numerator `rsp b` (the same sum restricted to the columns whose class equals the row's),
  once with the label embeddings as rows and once with the audio embeddings as rows. From these the loss is

      mean over b of  -( log (rsp_l b / (rs_l b + ε) + ε) + log (rsp_a b / (rs_a b + ε) + ε) ),   ε = 1e-8,

  the mean being the sum from zero divided by 8192. Both programs compute it by the same host operations with
  the same literals, so it is stated once here and never opened: the two results are equal as soon as the four
  vectors are.
-/
import Idealize.ShloMosaic.PureOps.Ideal.Laws
import Idealize.ShloMosaic.Lib.Pipeline.Value
import Idealize.ShloMosaic.Lib.ValueIdx

noncomputable section

namespace Cert.Spec

open Idealize.ShloMosaic

/-- One entry per row. -/
abbrev SRows : Shape := ⟨1, ![8192]⟩
/-- A scalar. -/
abbrev SScalar : Shape := ⟨0, ![]⟩

/-- The loss from the four vectors of per-row sums, in the host operations' own spelling. -/
def lossTail (hb : SScalar.BroadcastsInDim SRows (![] : Fin 0 → Fin SRows.rank)) (hr : SRows.ReducesTo [0] SScalar)
    (h0 : 0 < SScalar.numel)
    (rs_l rsp_l rs_a rsp_a : (⟨SRows, .f32⟩ : BufTy).Contents (Elt Ideal)) : (⟨SScalar, .f32⟩ : BufTy).Contents (Elt Ideal) :=
  Host.divf
    (Host.reduceAdd
      (Host.negf
        (addf
          (Host.log (addf (Host.divf rsp_l (addf rs_l (broadcastInDim SRows ![] hb (constant (F := Ideal) SScalar .f32 0x322BCC77#32))))
            (broadcastInDim SRows ![] hb (constant (F := Ideal) SScalar .f32 0x322BCC77#32))))
          (Host.log (addf (Host.divf rsp_a (addf rs_a (broadcastInDim SRows ![] hb (constant (F := Ideal) SScalar .f32 0x322BCC77#32))))
            (broadcastInDim SRows ![] hb (constant (F := Ideal) SScalar .f32 0x322BCC77#32))))))
      (constant (F := Ideal) SScalar .f32 0x00000000#32) hr h0)
    (constant (F := Ideal) SScalar .f32 0x46000000#32)

end Cert.Spec

end
-- ==== Proof.KernelResult.lean ====
/-
  The idealized kernel's result as one function of its three arguments.

  The buffer contents are followed from the launch to the return:

    * after the normalisation pass the two scratch arrays hold the row-normalised audio and label embeddings;
    * the label vector is recast once as a column and once as a row;
    * the first pairwise pass (label rows against audio columns) leaves its denominators and numerators, which are
      recast to vectors;
    * the second pairwise pass (audio rows against label columns) leaves its own, recast likewise — the first pass's
      vectors, the normalised arrays and the recast labels all pass through untouched;
    * the last stretch of host operations is the loss of the four vectors.

  Each step reads one buffer at one boundary; nothing is computed.
-/
import proofs.«143684_j42013370090174_2_alg».proof.Proof.Gen.KernelIdeal.Frame
import proofs.«143684_j42013370090174_2_alg».proof.Proof.NormArrays
import proofs.«143684_j42013370090174_2_alg».proof.Proof.PairArrays
import proofs.«143684_j42013370090174_2_alg».proof.Proof.PairArrays2
import proofs.«143684_j42013370090174_2_alg».proof.Proof.LossTail
import Idealize.ShloMosaic.Lib.StableHlo.Run

set_option maxRecDepth 16384

noncomputable section

namespace Cert.KernelIdeal.ResultValue

open Cert.KernelIdeal Cert.KernelIdeal.Gen
open Idealize.ShloMosaic Idealize.ShloMosaic.TcCoe Idealize.ShloMosaic.StableHlo Idealize.SL.Sem
open Cert.KernelIdeal.NormValue (normRows)
open Cert.KernelIdeal.PairValue (rowSums rowSumsPos)
open Cert.Spec (lossTail)

variable (m : (ℓ : Loc nD τ sig) → Buf (Elt Ideal) ℓ) (ρ : Dev nD → PrngReg) (c : Dev nD)

/-- The row-normalised audio embeddings. -/
abbrev audioN : S8192x512.Idx → EReal := normRows (m ((c : Thread nD τ).loc main_arg0))
/-- The row-normalised label embeddings. -/
abbrev labelN : S8192x512.Idx → EReal := normRows (m ((c : Thread nD τ).loc main_arg1))
/-- The class labels as a column. -/
abbrev classCol : S8192x1.Idx → BitVec 32 := shapeCast S8192x1 (m ((c : Thread nD τ).loc main_arg2)) shapeCasts_S8192_S8192x1
/-- The class labels as a row. -/
abbrev classRow : S1x8192.Idx → BitVec 32 := shapeCast S1x8192 (m ((c : Thread nD τ).loc main_arg2)) shapeCasts_S8192_S1x8192

/-! ## After the normalisation pass -/

theorem w1_audio : W1 m ρ c (Proc.devRef .tc main_v0_0) = audioN m c :=
  (W1_arr m ρ c 2).trans (NormValue.final2 (V0 m ρ) c)
theorem w1_label : W1 m ρ c (Proc.devRef .tc main_v0_1) = labelN m c :=
  (W1_arr m ρ c 3).trans (NormValue.final3 (V0 m ρ) c)
theorem w1_classes : W1 m ρ c (Proc.devRef .tc main_arg2) = (m ((c : Thread nD τ).loc main_arg2)) :=
  W1_of_ne m ρ c main_arg2 (by decide)

/-! ## After the label recasts -/

theorem w2_audio : W2 m ρ c (Proc.devRef .tc main_v0_0) = audioN m c :=
  (show W2 m ρ c (Proc.devRef .tc main_v0_0) = W1 m ρ c (Proc.devRef .tc main_v0_0) from (by
    refine StableHlo.after_of_forall_not_mem _ _ (List.forall_iff_forall_mem.mp ?_)
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))).trans (w1_audio m ρ c)
theorem w2_label : W2 m ρ c (Proc.devRef .tc main_v0_1) = labelN m c :=
  (show W2 m ρ c (Proc.devRef .tc main_v0_1) = W1 m ρ c (Proc.devRef .tc main_v0_1) from (by
    refine StableHlo.after_of_forall_not_mem _ _ (List.forall_iff_forall_mem.mp ?_)
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))).trans (w1_label m ρ c)
theorem w2_classCol : W2 m ρ c (Proc.devRef .tc main_v1) = classCol m c := by
  show StableHlo.after hostOps1 (W1 m ρ c) (Proc.devRef .tc main_v1) = _
  after_results
  rw [w1_classes]
  rfl
theorem w2_classRow : W2 m ρ c (Proc.devRef .tc main_v2) = classRow m c := by
  show StableHlo.after hostOps1 (W1 m ρ c) (Proc.devRef .tc main_v2) = _
  after_results
  rw [w1_classes]
  rfl

/-! ## After the first pairwise pass: label rows against audio columns -/

theorem w3_denomL : W3 m ρ c (Proc.devRef .tc main_v3_0) = rowSums (labelN m c) (audioN m c) :=
  (W3_arr m ρ c 4).trans (PairValue.finalDenom_of (V2 m ρ) c _ _ (w2_label m ρ c) (w2_audio m ρ c))
theorem w3_numerL : W3 m ρ c (Proc.devRef .tc main_v3_1) = rowSumsPos (labelN m c) (audioN m c) (classCol m c) (classRow m c) :=
  (W3_arr m ρ c 5).trans (PairValue.finalNumer_of (V2 m ρ) c _ _ _ _ (w2_label m ρ c) (w2_audio m ρ c) (w2_classCol m ρ c) (w2_classRow m ρ c))
theorem w3_label : W3 m ρ c (Proc.devRef .tc main_v0_1) = labelN m c :=
  ((W3_arr m ρ c 0).trans (((dat1 (V2 m ρ) c).arrAt_in 0 rfl _).trans (A_eq1 (V2 m ρ) c 0))).trans (w2_label m ρ c)
theorem w3_audio : W3 m ρ c (Proc.devRef .tc main_v0_0) = audioN m c :=
  ((W3_arr m ρ c 1).trans (((dat1 (V2 m ρ) c).arrAt_in 1 rfl _).trans (A_eq1 (V2 m ρ) c 1))).trans (w2_audio m ρ c)
theorem w3_classCol : W3 m ρ c (Proc.devRef .tc main_v1) = classCol m c :=
  ((W3_arr m ρ c 2).trans (((dat1 (V2 m ρ) c).arrAt_in 2 rfl _).trans (A_eq1 (V2 m ρ) c 2))).trans (w2_classCol m ρ c)
theorem w3_classRow : W3 m ρ c (Proc.devRef .tc main_v2) = classRow m c :=
  ((W3_arr m ρ c 3).trans (((dat1 (V2 m ρ) c).arrAt_in 3 rfl _).trans (A_eq1 (V2 m ρ) c 3))).trans (w2_classRow m ρ c)

/-! ## After its results are recast to vectors -/

theorem w4_audio : W4 m ρ c (Proc.devRef .tc main_v0_0) = audioN m c :=
  (show W4 m ρ c (Proc.devRef .tc main_v0_0) = W3 m ρ c (Proc.devRef .tc main_v0_0) from (by
    refine StableHlo.after_of_forall_not_mem _ _ (List.forall_iff_forall_mem.mp ?_)
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))).trans (w3_audio m ρ c)
theorem w4_label : W4 m ρ c (Proc.devRef .tc main_v0_1) = labelN m c :=
  (show W4 m ρ c (Proc.devRef .tc main_v0_1) = W3 m ρ c (Proc.devRef .tc main_v0_1) from (by
    refine StableHlo.after_of_forall_not_mem _ _ (List.forall_iff_forall_mem.mp ?_)
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))).trans (w3_label m ρ c)
theorem w4_classCol : W4 m ρ c (Proc.devRef .tc main_v1) = classCol m c :=
  (show W4 m ρ c (Proc.devRef .tc main_v1) = W3 m ρ c (Proc.devRef .tc main_v1) from (by
    refine StableHlo.after_of_forall_not_mem _ _ (List.forall_iff_forall_mem.mp ?_)
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))).trans (w3_classCol m ρ c)
theorem w4_classRow : W4 m ρ c (Proc.devRef .tc main_v2) = classRow m c :=
  (show W4 m ρ c (Proc.devRef .tc main_v2) = W3 m ρ c (Proc.devRef .tc main_v2) from (by
    refine StableHlo.after_of_forall_not_mem _ _ (List.forall_iff_forall_mem.mp ?_)
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))).trans (w3_classRow m ρ c)
theorem w4_denomL : W4 m ρ c (Proc.devRef .tc main_v4)
    = shapeCast S8192 (rowSums (labelN m c) (audioN m c)) shapeCasts_S8192x1_S8192 := by
  show StableHlo.after hostOps2 (W3 m ρ c) (Proc.devRef .tc main_v4) = _
  after_results
  rw [w3_denomL]
  rfl
theorem w4_numerL : W4 m ρ c (Proc.devRef .tc main_v5)
    = shapeCast S8192 (rowSumsPos (labelN m c) (audioN m c) (classCol m c) (classRow m c)) shapeCasts_S8192x1_S8192 := by
  show StableHlo.after hostOps2 (W3 m ρ c) (Proc.devRef .tc main_v5) = _
  after_results
  rw [w3_numerL]
  rfl

/-! ## After the second pairwise pass: audio rows against label columns -/

theorem w5_denomA : W5 m ρ c (Proc.devRef .tc main_v6_0) = rowSums (audioN m c) (labelN m c) :=
  (W5_arr m ρ c 4).trans (PairValue2.finalDenom_of (V4 m ρ) c _ _ (w4_audio m ρ c) (w4_label m ρ c))
theorem w5_numerA : W5 m ρ c (Proc.devRef .tc main_v6_1) = rowSumsPos (audioN m c) (labelN m c) (classCol m c) (classRow m c) :=
  (W5_arr m ρ c 5).trans (PairValue2.finalNumer_of (V4 m ρ) c _ _ _ _ (w4_audio m ρ c) (w4_label m ρ c) (w4_classCol m ρ c) (w4_classRow m ρ c))
theorem w5_denomL : W5 m ρ c (Proc.devRef .tc main_v4)
    = shapeCast S8192 (rowSums (labelN m c) (audioN m c)) shapeCasts_S8192x1_S8192 :=
  (W5_of_ne m ρ c main_v4 (by decide)).trans (w4_denomL m ρ c)
theorem w5_numerL : W5 m ρ c (Proc.devRef .tc main_v5)
    = shapeCast S8192 (rowSumsPos (labelN m c) (audioN m c) (classCol m c) (classRow m c)) shapeCasts_S8192x1_S8192 :=
  (W5_of_ne m ρ c main_v5 (by decide)).trans (w4_numerL m ρ c)

/-! ## The result -/

/-- The result buffer at the last boundary: the loss of the four vectors of per-row sums. -/
theorem w6_result : W6 m ρ c (Proc.devRef .tc main_v24)
    = lossTail bcast_S_S8192 reducesTo_S8192_S_d0 h_S_
        (shapeCast S8192 (rowSums (labelN m c) (audioN m c)) shapeCasts_S8192x1_S8192)
        (shapeCast S8192 (rowSumsPos (labelN m c) (audioN m c) (classCol m c) (classRow m c)) shapeCasts_S8192x1_S8192)
        (shapeCast S8192 (rowSums (audioN m c) (labelN m c)) shapeCasts_S8192x1_S8192)
        (shapeCast S8192 (rowSumsPos (audioN m c) (labelN m c) (classCol m c) (classRow m c)) shapeCasts_S8192x1_S8192) := by
  show StableHlo.after hostOps3 (W5 m ρ c) (Proc.devRef .tc main_v24) = _
  after_results
  rw [w5_denomL, w5_numerL, w5_denomA, w5_numerA]
  rfl

end Cert.KernelIdeal.ResultValue

end
-- ==== Proof.RefValue.lean ====
/-
  The reference's four vectors of per-row sums, read entry by entry.

  Both embedding arrays are normalised row by row (each entry divided by the larger of its row's norm and the floor;
  the norm's sum of squares starts from zero). The logits are the products of a normalised label row with a normalised
  audio row, summed over the 512 features and divided by the temperature. For row `b`:

    * denominator, labels as rows:  0 + ∑ k, exp (logit b k)
    * numerator,   labels as rows:  0 + ∑ k, exp (logit b k) · [class b = class k]
    * denominator, audio as rows:   0 + ∑ k, exp (logit k b)          (the transposed logits)
    * numerator,   audio as rows:   0 + ∑ k, exp (logit k b) · [class b = class k]

  where [·] is the comparison bit read as the number 0 or 1. The loss is the shared last stretch of these four.
-/
import proofs.«143684_j42013370090174_2_alg».proof.Proof.Gen.ReferenceIdeal.Read
import proofs.«143684_j42013370090174_2_alg».proof.Proof.LossTail

noncomputable section

namespace Cert.ReferenceIdeal.RefValue

open Cert.ReferenceIdeal Cert.ReferenceIdeal.Gen Cert.ReferenceIdeal.Read
open Idealize.ShloMosaic Idealize.ShloMosaic.ValueIdx

/-- An embedding array. -/
abbrev Arr := (⟨S8192x512, .f32⟩ : BufTy).Contents (Elt Ideal)
/-- The class labels. -/
abbrev Lab := (⟨S8192, .i32⟩ : BufTy).Contents (Elt Ideal)

/-- The result is the shared last stretch of the four vectors. -/
theorem result_eq_tail (x0 x1 : Arr) (x2 : Lab) :
    val_main_v49 (F := Ideal) x0 x1 x2
      = Cert.Spec.lossTail bcast_S_S8192 reducesTo_S8192_S_d0 h_S_ (val_main_v30 (F := Ideal) x0 x1)
          (val_main_v29 (F := Ideal) x0 x1 x2) (val_main_v36 (F := Ideal) x0 x1) (val_main_v35 (F := Ideal) x0 x1 x2) := rfl

/-- The label embeddings are normalised by the same operations as the audio embeddings. -/
theorem label_normalized_eq (x : Arr) : val_main_v15 (F := Ideal) x = val_main_v7 (F := Ideal) x := rfl

/-- A normalised entry. -/
theorem normalized_apply (x : Arr) (b : Fin 8192) (d : Fin 512) :
    val_main_v7 (F := Ideal) x (ix2 b d)
      = Ideal.div (x (ix2 b d))
          (max (Ideal.sqrt (Ideal.ofBits .f32 0x00000000#32 + ∑ e : Fin 512, x (ix2 b e) * x (ix2 b e)))
            (Ideal.ofBits .f32 0x2B8CBCCC#32)) := by
  rw [val_main_v7_apply, val_main_v6_apply, val_main_v5_apply, val_main_v3_apply, val_main_v2_apply, val_main_v1_apply,
    val_main_v4_apply]
  have hidx : ∀ k : Fin 512, idx_main_v1 (idx_main_v2 (idx_main_v6 (ix2 b d))) k = ix2 b k := fun k =>
    funext fun a => Fin.ext (by match a with | ⟨0, _⟩ => rfl | ⟨1, _⟩ => rfl)
  simp only [hidx]
  rfl

/-- The logit of label row `b` against audio row `k`, before the exponential. -/
def logit (x0 x1 : Arr) (b k : Fin 8192) : EReal :=
  Ideal.div (∑ d : Fin 512, val_main_v15 (F := Ideal) x1 (ix2 b d) * val_main_v7 (F := Ideal) x0 (ix2 k d))
    (Ideal.ofBits .f32 0x3D8F5C29#32)

/-- Entry (b, k) of the logits. -/
theorem logits_apply (x0 x1 : Arr) (b k : Fin 8192) : val_main_v24 (F := Ideal) x0 x1 (ix2 b k) = logit x0 x1 b k := by
  rw [val_main_v24_apply, val_main_v22_apply, val_main_v23_apply]
  have hl : ∀ d : Fin 512, lidx_main_v22 (ix2 b k) d = ix2 b d := fun d =>
    funext fun a => Fin.ext (by match a with | ⟨0, _⟩ => rfl | ⟨1, _⟩ => rfl)
  have hr : ∀ d : Fin 512, ridx_main_v22 (ix2 b k) d = ix2 k d := fun d =>
    funext fun a => Fin.ext (by match a with | ⟨0, _⟩ => rfl | ⟨1, _⟩ => rfl)
  simp only [hl, hr]
  rfl

/-- Labels as rows, denominator of row `b`. -/
theorem denomL_apply (x0 x1 : Arr) (b : Fin 8192) :
    val_main_v30 (F := Ideal) x0 x1 (ix1 b)
      = Ideal.ofBits .f32 0x00000000#32 + ∑ k : Fin 8192, Ideal.exp (logit x0 x1 b k) := by
  rw [val_main_v30_apply]
  refine congrArg (Ideal.ofBits .f32 0x00000000#32 + ·) (Finset.sum_congr rfl fun k _ => ?_)
  rw [val_main_v26_apply, show idx_main_v30 (ix1 b) k = ix2 b k from
    funext fun a => Fin.ext (by match a with | ⟨0, _⟩ => rfl | ⟨1, _⟩ => rfl), logits_apply]
  rfl

/-- Audio as rows, denominator of row `b`: the transposed logits. -/
theorem denomA_apply (x0 x1 : Arr) (b : Fin 8192) :
    val_main_v36 (F := Ideal) x0 x1 (ix1 b)
      = Ideal.ofBits .f32 0x00000000#32 + ∑ k : Fin 8192, Ideal.exp (logit x0 x1 k b) := by
  rw [val_main_v36_apply]
  refine congrArg (Ideal.ofBits .f32 0x00000000#32 + ·) (Finset.sum_congr rfl fun k _ => ?_)
  rw [val_main_v27_apply, val_main_v25_apply, show idx_main_v25 (idx_main_v36 (ix1 b) k) = ix2 k b from
    funext fun a => Fin.ext (by match a with | ⟨0, _⟩ => rfl | ⟨1, _⟩ => rfl), logits_apply]
  rfl

/-- Labels as rows, numerator of row `b`. -/
theorem numerL_apply (x0 x1 : Arr) (x2 : Lab) (b : Fin 8192) :
    val_main_v29 (F := Ideal) x0 x1 x2 (ix1 b)
      = Ideal.ofBits .f32 0x00000000#32 + ∑ k : Fin 8192, Ideal.exp (logit x0 x1 b k)
          * (((IntOp.cmpi .eq (x2 (ix1 b)) (x2 (ix1 k))).toNat : ℝ) : EReal) := by
  rw [val_main_v29_apply]
  refine congrArg (Ideal.ofBits .f32 0x00000000#32 + ·) (Finset.sum_congr rfl fun k _ => ?_)
  rw [val_main_v28_apply, val_main_v26_apply, show idx_main_v29 (ix1 b) k = ix2 b k from
    funext fun a => Fin.ext (by match a with | ⟨0, _⟩ => rfl | ⟨1, _⟩ => rfl), logits_apply,
    val_main_v21_apply, val_main_v20_apply, val_main_v18_apply, val_main_v19_apply, val_main_v16_apply, val_main_v17_apply]
  rw [show idx_main_v16 (idx_main_v18 (ix2 b k)) = ix1 b from funext fun a => Fin.ext (by match a with | ⟨0, _⟩ => rfl),
    show idx_main_v17 (idx_main_v19 (ix2 b k)) = ix1 k from funext fun a => Fin.ext (by match a with | ⟨0, _⟩ => rfl)]
  rfl

/-- Audio as rows, numerator of row `b`. -/
theorem numerA_apply (x0 x1 : Arr) (x2 : Lab) (b : Fin 8192) :
    val_main_v35 (F := Ideal) x0 x1 x2 (ix1 b)
      = Ideal.ofBits .f32 0x00000000#32 + ∑ k : Fin 8192, Ideal.exp (logit x0 x1 k b)
          * (((IntOp.cmpi .eq (x2 (ix1 b)) (x2 (ix1 k))).toNat : ℝ) : EReal) := by
  rw [val_main_v35_apply]
  refine congrArg (Ideal.ofBits .f32 0x00000000#32 + ·) (Finset.sum_congr rfl fun k _ => ?_)
  rw [val_main_v34_apply, val_main_v27_apply, val_main_v25_apply, show idx_main_v35 (ix1 b) k = ix2 b k from
    funext fun a => Fin.ext (by match a with | ⟨0, _⟩ => rfl | ⟨1, _⟩ => rfl),
    show idx_main_v25 (ix2 b k) = ix2 k b from
    funext fun a => Fin.ext (by match a with | ⟨0, _⟩ => rfl | ⟨1, _⟩ => rfl), logits_apply,
    val_main_v21_apply, val_main_v20_apply, val_main_v18_apply, val_main_v19_apply, val_main_v16_apply, val_main_v17_apply,
    show idx_main_v16 (idx_main_v18 (ix2 b k)) = ix1 b from funext fun a => Fin.ext (by match a with | ⟨0, _⟩ => rfl),
    show idx_main_v17 (idx_main_v19 (ix2 b k)) = ix1 k from funext fun a => Fin.ext (by match a with | ⟨0, _⟩ => rfl)]
  rfl

end Cert.ReferenceIdeal.RefValue

end
-- ==== Proof.ScalarLaws.lean ====
/-
  The three scalar laws that join the two programs.

  * The reference divides each scaled product by the temperature literal, whose float pattern denotes exactly
    9395241 / 2^27; dividing an extended real by that is multiplying it by 134217728 / 9395241 — the value the
    kernel's inverse-temperature constant is named to denote.
  * The reference keeps the positive pairs by multiplying with a 0/1 mask (a one-bit comparison read as a number);
    the kernel selects the exponential or zero by the same bit. On the extended reals x · 1 = x and x · 0 = 0 for
    every x, infinite ones included, so the two agree everywhere.
-/
import Idealize.ShloMosaic.PureOps.Ideal.Laws
import Idealize.ShloMosaic.Lib.ValueIdx

noncomputable section

namespace Cert.Spec

open Idealize.ShloMosaic

/-- The temperature literal denotes 9395241 / 134217728. -/
theorem ofBits_temperature : Ideal.ofBits .f32 0x3D8F5C29#32 = ((9395241 / 134217728 : ℝ) : EReal) := by
  simp [Ideal.ofBits, Ideal.ieee, -EReal.coe_mul]; norm_num

/-- Dividing by the temperature literal is multiplying by its reciprocal, on every extended real. -/
theorem div_temperature (z : EReal) :
    Ideal.div z (Ideal.ofBits .f32 0x3D8F5C29#32) = z * ((134217728 / 9395241 : ℝ) : EReal) := by
  rw [ofBits_temperature, Ideal.div_coe (by norm_num)]
  norm_num

/-- Multiplying by a one-bit mask read as a number is selecting the value or zero by that bit. -/
theorem mask_mul (p : BitVec 1) (e : EReal) :
    e * ((p.toNat : ℝ) : EReal) = Scalar.select p e (Ideal.ofBits .f32 0x00000000#32) := by
  rw [Ideal.ofBits_zero_f32]
  by_cases h : p = 1#1
  · subst h; simp [Scalar.select]
  · have h0 := ValueIdx.eq_zero_of_ne_one h
    subst h0; simp [Scalar.select]

end Cert.Spec

end
-- ==== Proof.Bridge.lean ====
/-
  The two programs compute the same loss.

  Entry by entry the reference's four vectors are the kernel's:

    * the reference's normalised arrays are the kernel's — the reference's sum of squares starts from a zero the
      kernel's lane sum does not spell, and 0 + x = x;
    * the reference's logit, a feature sum divided by the temperature literal, is the kernel's feature sum multiplied by
      its inverse-temperature constant: the literal denotes 9395241 / 2^27 and the constant is named 2^27 / 9395241;
    * the reference multiplies each exponential by the class-equality bit read as 0 or 1, the kernel selects the
      exponential or zero by the same bit;
    * with audio as rows the reference reads the transposed logits, whose feature products are the kernel's with the two
      factors exchanged.

  The column and row recasts of the label vector and the recasts of the per-row columns to vectors keep every entry
  where it is. The loss is the same last stretch of equal vectors.
-/
import proofs.«143684_j42013370090174_2_alg».proof.Proof.KernelResult
import proofs.«143684_j42013370090174_2_alg».proof.Proof.RefValue
import proofs.«143684_j42013370090174_2_alg».proof.Proof.ScalarLaws
import Idealize.ShloMosaic.PureOps.IdealRules

noncomputable section

namespace Cert.Bridge

open Idealize.ShloMosaic Idealize.ShloMosaic.ValueIdx Idealize.ShloMosaic.TcCoe Idealize.SL.Sem
open Cert.KernelIdeal.NormValue (normRows normFloor)
open Cert.KernelIdeal.PairValue (rowSums rowSumsPos invTemp)
open Cert.ReferenceIdeal.Read
open Cert.ReferenceIdeal.RefValue (Arr Lab logit)

/-- The kernel's inverse-temperature constant denotes 134217728 / 9395241. -/
theorem invTemp_eq : invTemp = ((134217728 / 9395241 : ℝ) : EReal) :=
  IdealRules.named_const.ideal_named_scalar _ _ _ _ rfl

/-- The reference's normalised array is the kernel's. -/
theorem normalized_eq (x : Arr) : val_main_v7 (F := Ideal) x = normRows x := by
  funext i
  obtain ⟨b, d, rfl⟩ : ∃ (b : Fin 8192) (d : Fin 512), i = ix2 b d := ⟨i 0, i 1, eq_ix2 i⟩
  rw [Cert.ReferenceIdeal.RefValue.normalized_apply]
  unfold normRows
  rw [Ideal.ofBits_zero_f32, zero_add]

/-- The reference's logit in the kernel's scaling. -/
theorem logit_eq (x0 x1 : Arr) (b k : Fin 8192) :
    logit x0 x1 b k = (∑ d : Fin 512, normRows x1 (ix2 b d) * normRows x0 (ix2 k d)) * invTemp := by
  unfold logit
  rw [Cert.Spec.div_temperature, invTemp_eq, Cert.ReferenceIdeal.RefValue.label_normalized_eq, normalized_eq x1, normalized_eq x0]

/-- The same with the two factors of every feature product exchanged. -/
theorem logit_eq_comm (x0 x1 : Arr) (b k : Fin 8192) :
    logit x0 x1 k b = (∑ d : Fin 512, normRows x0 (ix2 b d) * normRows x1 (ix2 k d)) * invTemp := by
  rw [logit_eq]
  exact congrArg (· * invTemp) (Finset.sum_congr rfl fun d _ => mul_comm _ _)

/-- A column recast to a vector keeps row `b`'s entry. -/
theorem column_to_vector_apply (v : Cert.KernelIdeal.S8192x1.Idx → EReal) (h : Cert.KernelIdeal.S8192x1.ShapeCasts Cert.KernelIdeal.S8192)
    (b : Fin 8192) : shapeCast Cert.KernelIdeal.S8192 v h (ix1 b) = v (ix2 b 0) :=
  shapeCast_apply v h (ix1 b) (ix2 b 0) (by
    rw [Shape.rowMajor_val_two, Shape.rowMajor_val_one]
    show b.val * 1 + 0 = b.val
    omega)

/-- The label vector recast to a row keeps label `k` at column `k`. -/
theorem vector_to_row_apply (x2 : Lab) (h : Cert.KernelIdeal.S8192.ShapeCasts Cert.KernelIdeal.S1x8192) (k : Fin 8192) :
    shapeCast Cert.KernelIdeal.S1x8192 x2 h (ix2 0 k) = x2 (ix1 k) :=
  shapeCast_apply x2 h (ix2 0 k) (ix1 k) (by
    rw [Shape.rowMajor_val_two, Shape.rowMajor_val_one]
    show k.val = 0 * 8192 + k.val
    omega)

/-- Labels as rows: the denominators agree. -/
theorem denomL_eq (x0 x1 : Arr) (h : Cert.KernelIdeal.S8192x1.ShapeCasts Cert.KernelIdeal.S8192) :
    val_main_v30 (F := Ideal) x0 x1 = shapeCast Cert.KernelIdeal.S8192 (rowSums (normRows x1) (normRows x0)) h := by
  funext i
  obtain ⟨b, rfl⟩ : ∃ b : Fin 8192, i = ix1 b := ⟨i 0, eq_ix1 i⟩
  rw [Cert.ReferenceIdeal.RefValue.denomL_apply, column_to_vector_apply]
  unfold rowSums
  simp only [logit_eq]

/-- Audio as rows: the denominators agree. -/
theorem denomA_eq (x0 x1 : Arr) (h : Cert.KernelIdeal.S8192x1.ShapeCasts Cert.KernelIdeal.S8192) :
    val_main_v36 (F := Ideal) x0 x1 = shapeCast Cert.KernelIdeal.S8192 (rowSums (normRows x0) (normRows x1)) h := by
  funext i
  obtain ⟨b, rfl⟩ : ∃ b : Fin 8192, i = ix1 b := ⟨i 0, eq_ix1 i⟩
  rw [Cert.ReferenceIdeal.RefValue.denomA_apply, column_to_vector_apply]
  unfold rowSums
  simp only [logit_eq_comm]

/-- Labels as rows: the numerators agree. -/
theorem numerL_eq (x0 x1 : Arr) (x2 : Lab) (h : Cert.KernelIdeal.S8192x1.ShapeCasts Cert.KernelIdeal.S8192)
    (h1 : Cert.KernelIdeal.S8192.ShapeCasts Cert.KernelIdeal.S8192x1) (h2 : Cert.KernelIdeal.S8192.ShapeCasts Cert.KernelIdeal.S1x8192) :
    val_main_v29 (F := Ideal) x0 x1 x2
      = shapeCast Cert.KernelIdeal.S8192 (rowSumsPos (normRows x1) (normRows x0)
          (shapeCast Cert.KernelIdeal.S8192x1 x2 h1) (shapeCast Cert.KernelIdeal.S1x8192 x2 h2)) h := by
  funext i
  obtain ⟨b, rfl⟩ : ∃ b : Fin 8192, i = ix1 b := ⟨i 0, eq_ix1 i⟩
  rw [Cert.ReferenceIdeal.RefValue.numerL_apply, column_to_vector_apply]
  unfold rowSumsPos
  show _ = Ideal.ofBits .f32 0x00000000#32 + ∑ j : Fin 8192,
      Scalar.select (IntOp.cmpi .eq (shapeCast Cert.KernelIdeal.S8192x1 x2 h1 (ix2 b 0)) (shapeCast Cert.KernelIdeal.S1x8192 x2 h2 (ix2 0 j)))
        (Ideal.exp ((∑ d : Fin 512, normRows x1 (ix2 b d) * normRows x0 (ix2 j d)) * invTemp)) (Ideal.ofBits .f32 0x00000000#32)
  refine congrArg (Ideal.ofBits .f32 0x00000000#32 + ·) (Finset.sum_congr rfl fun k _ => ?_)
  rw [logit_eq, Cert.Spec.mask_mul, vector_to_row_apply x2 h2 k, shapeCast_a_a1_apply x2 h1 b 0]

/-- Audio as rows: the numerators agree. -/
theorem numerA_eq (x0 x1 : Arr) (x2 : Lab) (h : Cert.KernelIdeal.S8192x1.ShapeCasts Cert.KernelIdeal.S8192)
    (h1 : Cert.KernelIdeal.S8192.ShapeCasts Cert.KernelIdeal.S8192x1) (h2 : Cert.KernelIdeal.S8192.ShapeCasts Cert.KernelIdeal.S1x8192) :
    val_main_v35 (F := Ideal) x0 x1 x2
      = shapeCast Cert.KernelIdeal.S8192 (rowSumsPos (normRows x0) (normRows x1)
          (shapeCast Cert.KernelIdeal.S8192x1 x2 h1) (shapeCast Cert.KernelIdeal.S1x8192 x2 h2)) h := by
  funext i
  obtain ⟨b, rfl⟩ : ∃ b : Fin 8192, i = ix1 b := ⟨i 0, eq_ix1 i⟩
  rw [Cert.ReferenceIdeal.RefValue.numerA_apply, column_to_vector_apply]
  unfold rowSumsPos
  show _ = Ideal.ofBits .f32 0x00000000#32 + ∑ j : Fin 8192,
      Scalar.select (IntOp.cmpi .eq (shapeCast Cert.KernelIdeal.S8192x1 x2 h1 (ix2 b 0)) (shapeCast Cert.KernelIdeal.S1x8192 x2 h2 (ix2 0 j)))
        (Ideal.exp ((∑ d : Fin 512, normRows x0 (ix2 b d) * normRows x1 (ix2 j d)) * invTemp)) (Ideal.ofBits .f32 0x00000000#32)
  refine congrArg (Ideal.ofBits .f32 0x00000000#32 + ·) (Finset.sum_congr rfl fun k _ => ?_)
  rw [logit_eq_comm, Cert.Spec.mask_mul, vector_to_row_apply x2 h2 k, shapeCast_a_a1_apply x2 h1 b 0]

open Cert.KernelIdeal Cert.KernelIdeal.Gen in
/-- The kernel's result buffer at the last boundary is the reference's result of the same three arguments. -/
theorem kernel_eq_reference (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W6 m ρ c (Proc.devRef .tc Cert.KernelIdeal.main_v24)
      = val_main_v49 (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := by
  rw [Cert.KernelIdeal.ResultValue.w6_result, Cert.ReferenceIdeal.RefValue.result_eq_tail,
    denomL_eq _ _ Cert.KernelIdeal.Gen.shapeCasts_S8192x1_S8192,
    numerL_eq _ _ _ Cert.KernelIdeal.Gen.shapeCasts_S8192x1_S8192 Cert.KernelIdeal.Gen.shapeCasts_S8192_S8192x1 Cert.KernelIdeal.Gen.shapeCasts_S8192_S1x8192,
    denomA_eq _ _ Cert.KernelIdeal.Gen.shapeCasts_S8192x1_S8192,
    numerA_eq _ _ _ Cert.KernelIdeal.Gen.shapeCasts_S8192x1_S8192 Cert.KernelIdeal.Gen.shapeCasts_S8192_S8192x1 Cert.KernelIdeal.Gen.shapeCasts_S8192_S1x8192]

end Cert.Bridge

end
-- ==== Proof.lean ====
/-
  The certificate of the InfoNCE contrastive-loss kernel against its reference.

  The kernel normalises both embedding arrays row by row in one pass, then runs the same pairwise kernel twice — label
  rows against audio columns, then audio rows against label columns — each pass walking the 8192 columns in 8 chunks and
  keeping, per row, the sum of the exponentiated scaled products and the same sum over the columns of the row's own
  class; the loss is a short stretch of host arithmetic on the four vectors. The reference forms the whole 8192 × 8192
  matrix of logits, its transpose and a 0/1 class mask, and sums along rows.

  On the extended reals the two agree for every input, finite or not: a sum taken chunk by chunk is the sum; the
  products of a row block with a column block are the matching entries of the whole product; multiplying by the
  kernel's inverse-temperature constant — named the exact reciprocal of the reference's temperature literal — is
  dividing by that literal; selecting the exponential or zero by the class-equality bit is multiplying by the bit; and
  the transposed logits differ only in the order of two factors. The precondition is not used.

  The three frame claims are the generated frames (the reference's is its generated run with the result dropped);
  the two rewrites of the idealization are the named constant's statement at its two sites.
-/
import proofs.«143684_j42013370090174_2_alg».proof.Defs
import proofs.«143684_j42013370090174_2_alg».proof.Proof.Gen.Kernel
import proofs.«143684_j42013370090174_2_alg».proof.Proof.Gen.Kernel.Skeleton
import proofs.«143684_j42013370090174_2_alg».proof.Proof.Gen.Kernel.Loops
import proofs.«143684_j42013370090174_2_alg».proof.Proof.Gen.Kernel.Launch
import proofs.«143684_j42013370090174_2_alg».proof.Proof.Gen.Kernel.Points
import proofs.«143684_j42013370090174_2_alg».proof.Proof.Gen.Kernel.Frame
import proofs.«143684_j42013370090174_2_alg».proof.Proof.Gen.KernelIdeal
import proofs.«143684_j42013370090174_2_alg».proof.Proof.Gen.KernelIdeal.Skeleton
import proofs.«143684_j42013370090174_2_alg».proof.Proof.Gen.KernelIdeal.Loops
import proofs.«143684_j42013370090174_2_alg».proof.Proof.Gen.KernelIdeal.Launch
import proofs.«143684_j42013370090174_2_alg».proof.Proof.Gen.KernelIdeal.Points
import proofs.«143684_j42013370090174_2_alg».proof.Proof.Gen.KernelIdeal.Frame
import proofs.«143684_j42013370090174_2_alg».proof.Proof.Gen.ReferenceIdeal
import proofs.«143684_j42013370090174_2_alg».proof.Proof.Gen.Pre_finite_inputs
import proofs.«143684_j42013370090174_2_alg».proof.Proof.Gen.ReferenceIdeal.Run
import proofs.«143684_j42013370090174_2_alg».proof.Proof.Gen.ReferenceIdeal.Read
import proofs.«143684_j42013370090174_2_alg».proof.Proof.KernelRun
import proofs.«143684_j42013370090174_2_alg».proof.Proof.Bridge
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The inverse-temperature constant is named the reciprocal of the reference's temperature literal, at both passes. -/
theorem preserves : Cert.preserves_Kernel_KernelIdeal :=
  ⟨IdealRules.named_const.statement Cert.KernelIdeal.κ "inv_temp" .f32 0x41649249#32 ((134217728 / 9395241 : ℝ) : EReal) rfl,
   IdealRules.named_const.statement Cert.KernelIdeal.κ "inv_temp" .f32 0x41649249#32 ((134217728 / 9395241 : ℝ) : EReal) rfl⟩

/-- Both runs end with the reference's loss of the arguments in their result buffers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W6 m ρ c (Proc.devRef .tc Cert.KernelIdeal.main_v24),
    Cert.KernelIdeal.RunValue.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v49_eq, (hagree c).1, (hagree c).2.1, (hagree c).2.2]
  exact (Cert.Bridge.kernel_eq_reference m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
